-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x16 : Shape := ⟨2, ![64, 16]⟩
abbrev S64x64 : Shape := ⟨2, ![64, 64]⟩
abbrev S64 : Shape := ⟨1, ![64]⟩
abbrev S80x4 : Shape := ⟨2, ![80, 4]⟩
abbrev S4 : Shape := ⟨1, ![4]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S80x4 : S_.BroadcastsInDim S80x4 (![] : Fin 0 → Fin S80x4.rank)
  reducesTo_S80x4_S_d0_1 : S80x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg9 : FVec F S4 .f32) (main_v33 : IVec S_ 1) : IVec S_ 1 :=
  let main_v34 : FVec F S4 .f32 := Host.absf main_arg9
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S80x4 .f32) (main_arg9 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S80x4 .f32 := Host.absf main_arg8
  let main_cst_10 : FVec F S_ .f32 := constant S_ .f32 0x7F800000#32
  let main_v30 : FVec F S80x4 .f32 := broadcastInDim S80x4 ![] bcast_S_S80x4 main_cst_10
  let main_v31 : IVec S80x4 1 := cmpf .olt main_v29 main_v30
  let main_c_11 : IVec S_ 1 := constantI S_ 1 1#1
  let main_v32 : IVec S_ 1 := (fun x v => Host.reduce IntOp.andi x v reducesTo_S80x4_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : IVec S2x1600000 32) (main_arg2 : IVec S100000 32) (main_arg3 : FVec F S64x16 .f32) (main_arg4 : FVec F S64x64 .f32) (main_arg5 : FVec F S64 .f32) (main_arg6 : FVec F S64x64 .f32) (main_arg7 : FVec F S64 .f32) (main_arg8 : FVec F S80x4 .f32) (main_arg9 : FVec F S4 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x16 .f32 := Host.absf main_arg3
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x16 : Shape := ⟨2, ![64, 16]⟩
abbrev S64x64 : Shape := ⟨2, ![64, 64]⟩
abbrev S64 : Shape := ⟨1, ![64]⟩
abbrev S80x4 : Shape := ⟨2, ![80, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩
abbrev S64x1 : Shape := ⟨2, ![64, 1]⟩
abbrev S64x80 : Shape := ⟨2, ![64, 80]⟩
abbrev S64x4 : Shape := ⟨2, ![64, 4]⟩
abbrev S1x4 : Shape := ⟨2, ![1, 4]⟩

abbrev nBuf : Space → Nat
  | .hbm => 104
  | .vmem => 31
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x16, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S80x4, .f32⟩
  | .hbm, ⟨9, _⟩ => ⟨S4, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S1600000x1, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S1600000x1, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S_, .f32⟩
  | .hbm, ⟨84, _⟩ => ⟨S64x64, .f32⟩
  | .hbm, ⟨85, _⟩ => ⟨S100000x1, .i32⟩
  | .hbm, ⟨86, _⟩ => ⟨S64x64, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S64, .f32⟩
  | .hbm, ⟨91, _⟩ => ⟨S100000x1, .i32⟩
  | .hbm, ⟨92, _⟩ => ⟨S64, .f32⟩
  | .hbm, ⟨93, _⟩ => ⟨S_, .f32⟩
  | .hbm, ⟨94, _⟩ => ⟨S64, .f32⟩
  | .hbm, ⟨95, _⟩ => ⟨S64, .f32⟩
  | .hbm, ⟨96, _⟩ => ⟨S64x1, .f32⟩
  | .hbm, ⟨97, _⟩ => ⟨S64x64, .f32⟩
  | .hbm, ⟨98, _⟩ => ⟨S64x64, .f32⟩
  | .hbm, ⟨99, _⟩ => ⟨S64x80, .f32⟩
  | .hbm, ⟨100, _⟩ => ⟨S64x4, .f32⟩
  | .hbm, ⟨101, _⟩ => ⟨S1x4, .f32⟩
  | .hbm, ⟨102, _⟩ => ⟨S64x4, .f32⟩
  | .hbm, ⟨103, _⟩ => ⟨S64x4, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S64x80, .f32⟩
  | .local _ .vmem, ⟨29, _⟩ => ⟨S80x4, .f32⟩
  | .local _ .vmem, ⟨30, _⟩ => ⟨S64x4, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S64x80 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S80x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  concatenates_S64x64_S64x16_S64x80_d1 : Shape.Concatenates [S64x64, S64x16] S64x80 1
  inb_S64x80_S64x80_0_0 : ∀ a, (![0, 0] : Fin 2 → Nat) a + S64x80.size a ≤ S64x80.size a
  h_S64x80 : 0 < S64x80.numel
  shapeCasts_S64x80_S64x80 : S64x80.ShapeCasts S64x80
  inb_S80x4_S80x4_0_0 : ∀ a, (![0, 0] : Fin 2 → Nat) a + S80x4.size a ≤ S80x4.size a
  h_S80x4 : 0 < S80x4.numel
  inb_S64x4_S64x4_0_0 : ∀ a, (![0, 0] : Fin 2 → Nat) a + S64x4.size a ≤ S64x4.size a
  h_S64x4 : 0 < S64x4.numel
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x80_S80x4_S64x4_1_0_0_1_n_n_wf : DotDims.WF S64x80 S80x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S64x80.size a ≤ S64x80.size a
  hwx4_0 : ∀ i : grid4.Coords, EltTy.bits .f32 = 32 ∨ (Rect.block (s := S64x80) S64x80.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S80x4.size a ≤ S80x4.size a
  hwx4_1 : ∀ i : grid4.Coords, EltTy.bits .f32 = 32 ∨ (Rect.block (s := S80x4) S80x4.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S64x4.size a ≤ S64x4.size a
  hwx4_2 : ∀ i : grid4.Coords, EltTy.bits .f32 = 32 ∨ (Rect.block (s := S64x4) S64x4.size (cc4_transform_2 i) (hinb4_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x80_S80x4_S64x4_1_0_0_1_n_n : DotDims S64x80 S80x4 S64x4 where
  lhsContracting := [1]
  rhsContracting := [0]
  lhsNonContracting := [0]
  rhsNonContracting := [1]
  lhsBatch := []
  rhsBatch := []
  wf := dot_S64x80_S80x4_S64x4_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v72) S64x80.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S80x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S64x4.size cc4_transform_2 reads4_2 true false 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x16 : Shape := ⟨2, ![64, 16]⟩
abbrev S64x64 : Shape := ⟨2, ![64, 64]⟩
abbrev S64 : Shape := ⟨1, ![64]⟩
abbrev S80x4 : Shape := ⟨2, ![80, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S64x80 : Shape := ⟨2, ![64, 80]⟩
abbrev S64x4 : Shape := ⟨2, ![64, 4]⟩
abbrev S1x4 : Shape := ⟨2, ![1, 4]⟩

abbrev nBuf : Space → Nat
  | .hbm => 139
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x16, .f32⟩
  | 4 => ⟨S64x64, .f32⟩
  | 5 => ⟨S64, .f32⟩
  | 6 => ⟨S64x64, .f32⟩
  | 7 => ⟨S64, .f32⟩
  | 8 => ⟨S80x4, .f32⟩
  | 9 => ⟨S4, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x1, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1600000x1, .f32⟩
  | 101 => ⟨S1600000x64, .f32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S100000, .f32⟩
  | 108 => ⟨S100000x1, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S_, .f32⟩
  | 119 => ⟨S64x64, .f32⟩
  | 120 => ⟨S100000x1, .i32⟩
  | 121 => ⟨S64x64, .f32⟩
  | 122 => ⟨S_, .f32⟩
  | 123 => ⟨S100000, .f32⟩
  | 124 => ⟨S_, .f32⟩
  | 125 => ⟨S64, .f32⟩
  | 126 => ⟨S100000x1, .i32⟩
  | 127 => ⟨S64, .f32⟩
  | _ => ⟨S100000x64, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x64, .f32⟩
  | 5 => ⟨S64x64, .f32⟩
  | 6 => ⟨S64x80, .f32⟩
  | 7 => ⟨S64x4, .f32⟩
  | 8 => ⟨S1x4, .f32⟩
  | 9 => ⟨S64x4, .f32⟩
  | 10 => ⟨S64x4, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_call1_cst : Ref sig .tc := ⟨.hbm, 115, rfl⟩
abbrev main_call1_v0 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_v90 : Ref sig .tc := ⟨.hbm, 123, rfl⟩
abbrev main_cst_17 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_18 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  concatenates_S64x64_S64x16_S64x80_d1 : Shape.Concatenates [S64x64, S64x16] S64x80 1
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x80_S80x4_S64x4_1_0_0_1_n_n_wf : DotDims.WF S64x80 S80x4 S64x4 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x80_S80x4_S64x4_1_0_0_1_n_n : DotDims S64x80 S80x4 S64x4 where
  lhsContracting := [1]
  rhsContracting := [0]
  lhsNonContracting := [0]
  rhsNonContracting := [1]
  lhsBatch := []
  rhsBatch := []
  wf := dot_S64x80_S80x4_S64x4_1_0_0_1_n_n_wf

class Facts : Prop extends Facts₀ where

variable [Facts]
-- ==== Proof.KernelRun.lean ====
/-
  The idealized kernel program's run, with the result named. From any launch memory every weakly fair execution of
  @main terminates without a fault, the ten argument arrays end as launched, and the result array ends at what the
  fold through @main's ten segments (five stretches of host operations, five kernel regions) leaves in its buffer:
  `Gen.W10 m ρ c` at the result's reference. The argument is the frame's own: the launch over the segments, the last
  thread state read against the final state; only the post keeps one more buffer of that state.
-/
import proofs.«131117_j51857435132133_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting; the result buffer ends at the last segment
    boundary's contents and every argument array as launched. -/
theorem run : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.KernelRun

end
-- ==== Proof.LibColumn.lean ====
/-
  A vector read as a column. For a vector x of length a, the cast of x to shape [a, 1] and the broadcast of x
  along axis 0 into shape [a, 1] are the same array: entry (r, 0) of either is x(r). Stated for any element
  type and any length.
-/
import Idealize.ShloMosaic.Lib.Pipeline.Value
import Idealize.ShloMosaic.Lib.ValueIdx

namespace Cert.LibColumn

open Idealize.ShloMosaic Idealize.ShloMosaic.ValueIdx

variable {α : Type}

/-- Entry (r, 0) of the cast of a length-a vector to shape [a, 1] is the vector's entry r. -/
theorem shapeCast_col_apply {a : ℕ} (x : (⟨1, ![a]⟩ : Shape).Idx → α)
    (h : (⟨1, ![a]⟩ : Shape).ShapeCasts ⟨2, ![a, 1]⟩) (j : (⟨2, ![a, 1]⟩ : Shape).Idx) :
    shapeCast ⟨2, ![a, 1]⟩ x h j = x (ix1 (j 0)) := by
  have h1 : (j 1).val = 0 := by
    have := (j 1).isLt
    simp only [Matrix.cons_val_one, Matrix.cons_val_zero] at this
    omega
  refine shapeCast_apply x h j (ix1 (j 0)) ?_
  rw [Shape.rowMajor_val_one, Shape.rowMajor_val_two, h1]
  simp
  rfl

/-- Entry (r, 0) of the broadcast of a length-a vector along axis 0 into shape [a, 1] is the vector's entry r. -/
theorem broadcastInDim_col_apply {a : ℕ} (x : (⟨1, ![a]⟩ : Shape).Idx → α)
    (hb : (⟨1, ![a]⟩ : Shape).BroadcastsInDim ⟨2, ![a, 1]⟩ ![0]) (j : (⟨2, ![a, 1]⟩ : Shape).Idx) :
    broadcastInDim ⟨2, ![a, 1]⟩ ![0] hb x j = x (ix1 (j 0)) := by
  refine broadcastInDim_apply ![0] hb x j (ix1 (j 0)) ?_
  intro d
  match d with
  | ⟨0, _⟩ =>
    show (j 0).val = if a = 1 then 0 else (j 0).val
    split_ifs with ha
    · have := (j 0).isLt
      simp only [Matrix.cons_val_zero] at this
      omega
    · rfl

/-- The cast to a column and the broadcast to a column are one array. -/
theorem shapeCast_col_eq_broadcastInDim {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x :=
  funext fun j => (shapeCast_col_apply x h j).trans (broadcastInDim_col_apply x hb j).symm

end Cert.LibColumn
-- ==== Proof.LibRow.lean ====
/-
  A vector read as a row. For a vector x of length b, the cast of x to shape [1, b] and the broadcast of x
  along axis 1 into shape [1, b] are the same array: entry (0, q) of either is x(q). Stated for any element
  type and any length.
-/
import Idealize.ShloMosaic.Lib.Pipeline.Value
import Idealize.ShloMosaic.Lib.ValueIdx

namespace Cert.LibRow

open Idealize.ShloMosaic Idealize.ShloMosaic.ValueIdx

variable {α : Type}

/-- Entry (0, q) of the cast of a length-b vector to shape [1, b] is the vector's entry q. -/
theorem shapeCast_row_apply {b : ℕ} (x : (⟨1, ![b]⟩ : Shape).Idx → α)
    (h : (⟨1, ![b]⟩ : Shape).ShapeCasts ⟨2, ![1, b]⟩) (j : (⟨2, ![1, b]⟩ : Shape).Idx) :
    shapeCast ⟨2, ![1, b]⟩ x h j = x (fun a => j a.succ) :=
  shapeCast_addUnit_apply ![b] x h j

/-- Entry (0, q) of the broadcast of a length-b vector along axis 1 into shape [1, b] is the vector's entry q. -/
theorem broadcastInDim_row_apply {b : ℕ} (x : (⟨1, ![b]⟩ : Shape).Idx → α)
    (hb : (⟨1, ![b]⟩ : Shape).BroadcastsInDim ⟨2, ![1, b]⟩ ![1]) (j : (⟨2, ![1, b]⟩ : Shape).Idx) :
    broadcastInDim ⟨2, ![1, b]⟩ ![1] hb x j = x (fun a => j a.succ) := by
  refine broadcastInDim_apply ![1] hb x j (fun a => j a.succ) ?_
  intro d
  match d with
  | ⟨0, _⟩ =>
    show (j 1).val = if b = 1 then 0 else (j 1).val
    split_ifs with hb1
    · have := (j 1).isLt
      simp only [Matrix.cons_val_one, Matrix.cons_val_zero] at this
      omega
    · rfl

/-- The cast to a row and the broadcast to a row are one array. -/
theorem shapeCast_row_eq_broadcastInDim {b : ℕ} (x : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ x h = broadcastInDim ⟨2, ![1, b]⟩ ![1] hb x :=
  funext fun j => (shapeCast_row_apply x h j).trans (broadcastInDim_row_apply x hb j).symm

end Cert.LibRow
-- ==== Proof.Fold.lean ====
/-
  What the idealized kernel program's result buffer holds at the end of @main, as a function of the ten argument
  arrays. @main is ten segments: stretches of host operations (the degree and its inverse square root, the edge
  weights, the gathers and scatter-adds of each layer, the mean pool, the final bias) around five kernel regions
  (X·W1; max(agg + xw·deg2 + b1, 0); H·W2; the same with b2; the head's product). `Gen.Wk m ρ c` is the contents of
  every buffer at the k-th segment boundary. Boundary by boundary, each buffer a later segment reads is shown to
  hold the value the reference program computes for the corresponding line (`val_main_vN` of the launch contents of
  the arguments): a host operation's result is the same operation of the same operands; a region's output is the
  host operation the region facts name; a buffer no segment writes keeps its value. Two spellings differ and are
  one array: the column [100000, 1] of squared inverse square roots (a cast in the kernel program, a broadcast in the
  reference) and the bias row [1, 64] (likewise).
-/
import proofs.«131117_j51857435132133_1_alg».proof.Proof.Gen.KernelIdeal.Frame
import proofs.«131117_j51857435132133_1_alg».proof.Proof.Gen.ReferenceIdeal.Read
import proofs.«131117_j51857435132133_1_alg».proof.Proof.LibColumn
import proofs.«131117_j51857435132133_1_alg».proof.Proof.LibRow
import Idealize.ShloMosaic.Lib.StableHlo.Run

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Read

/-- What each kernel region leaves in its output array, as one function of the arrays it finds on entry (`V`): the
    three matrix products are the host's products of the same operands; the two combines are
    max((agg + xw · deg2) + bias, 0) with the column `deg2` and the row `bias` spread over the array. -/
structure RegionFacts : Prop where
  mm0 : ∀ (V : (c : Dev nD) → (b : Ref sig .tc) → Buf (Elt Ideal) ((c : Thread nD τ).loc b)) (c : Dev nD),
    (dat0 (F := Ideal) V c).arrAt 2 cfg0.N
      = Host.dotGeneral (F := Ideal) (φ₁ := .f32) (φ₂ := .f32) Cert.ReferenceIdeal.dot_S100000x64_S64x64_S100000x64_1_0_0_1_n_n none (V c main_arg0) (V c main_arg4)
  cb1 : ∀ (V : (c : Dev nD) → (b : Ref sig .tc) → Buf (Elt Ideal) ((c : Thread nD τ).loc b)) (c : Dev nD),
    (dat1 (F := Ideal) V c).arrAt 4 cfg1.N
      = maximumf (addf (addf (V c main_v41) (mulf (V c main_v28)
            (broadcastInDim Cert.ReferenceIdeal.S100000x64 ![0, 1] Cert.ReferenceIdeal.Facts₀.bcast_S100000x1_S100000x64_0_1 (V c main_v27))))
          (broadcastInDim Cert.ReferenceIdeal.S100000x64 ![0, 1] Cert.ReferenceIdeal.Facts₀.bcast_S1x64_S100000x64_0_1 (V c main_v42)))
        (broadcastInDim Cert.ReferenceIdeal.S100000x64 ![] Cert.ReferenceIdeal.Facts₀.bcast_S_S100000x64 (constant (F := Ideal) Cert.ReferenceIdeal.S_ .f32 0x00000000#32))
  mm2 : ∀ (V : (c : Dev nD) → (b : Ref sig .tc) → Buf (Elt Ideal) ((c : Thread nD τ).loc b)) (c : Dev nD),
    (dat2 (F := Ideal) V c).arrAt 2 cfg2.N
      = Host.dotGeneral (F := Ideal) (φ₁ := .f32) (φ₂ := .f32) Cert.ReferenceIdeal.dot_S100000x64_S64x64_S100000x64_1_0_0_1_n_n none (V c main_v43) (V c main_arg6)
  cb3 : ∀ (V : (c : Dev nD) → (b : Ref sig .tc) → Buf (Elt Ideal) ((c : Thread nD τ).loc b)) (c : Dev nD),
    (dat3 (F := Ideal) V c).arrAt 4 cfg3.N
      = maximumf (addf (addf (V c main_v57) (mulf (V c main_v44)
            (broadcastInDim Cert.ReferenceIdeal.S100000x64 ![0, 1] Cert.ReferenceIdeal.Facts₀.bcast_S100000x1_S100000x64_0_1 (V c main_v27))))
          (broadcastInDim Cert.ReferenceIdeal.S100000x64 ![0, 1] Cert.ReferenceIdeal.Facts₀.bcast_S1x64_S100000x64_0_1 (V c main_v58)))
        (broadcastInDim Cert.ReferenceIdeal.S100000x64 ![] Cert.ReferenceIdeal.Facts₀.bcast_S_S100000x64 (constant (F := Ideal) Cert.ReferenceIdeal.S_ .f32 0x00000000#32))
  mm4 : ∀ (V : (c : Dev nD) → (b : Ref sig .tc) → Buf (Elt Ideal) ((c : Thread nD τ).loc b)) (c : Dev nD),
    (dat4 (F := Ideal) V c).arrAt 2 cfg4.N
      = Host.dotGeneral (F := Ideal) (φ₁ := .f32) (φ₂ := .f32) Cert.ReferenceIdeal.dot_S64x80_S80x4_S64x4_1_0_0_1_n_n none (V c main_v72) (V c main_arg8)

variable (m : (ℓ : Loc nD τ sig) → Buf (Elt Ideal) ℓ) (ρ : Dev nD → PrngReg) (c : Dev nD)

/-- The launch contents of the ten argument arrays. -/
abbrev a0 : Buf (Elt Ideal) ((c.tc : Thread nD τ).loc main_arg0) := m ((c.tc : Thread nD τ).loc main_arg0)
abbrev a1 : Buf (Elt Ideal) ((c.tc : Thread nD τ).loc main_arg1) := m ((c.tc : Thread nD τ).loc main_arg1)
abbrev a2 : Buf (Elt Ideal) ((c.tc : Thread nD τ).loc main_arg2) := m ((c.tc : Thread nD τ).loc main_arg2)
abbrev a3 : Buf (Elt Ideal) ((c.tc : Thread nD τ).loc main_arg3) := m ((c.tc : Thread nD τ).loc main_arg3)
abbrev a4 : Buf (Elt Ideal) ((c.tc : Thread nD τ).loc main_arg4) := m ((c.tc : Thread nD τ).loc main_arg4)
abbrev a5 : Buf (Elt Ideal) ((c.tc : Thread nD τ).loc main_arg5) := m ((c.tc : Thread nD τ).loc main_arg5)
abbrev a6 : Buf (Elt Ideal) ((c.tc : Thread nD τ).loc main_arg6) := m ((c.tc : Thread nD τ).loc main_arg6)
abbrev a7 : Buf (Elt Ideal) ((c.tc : Thread nD τ).loc main_arg7) := m ((c.tc : Thread nD τ).loc main_arg7)
abbrev a8 : Buf (Elt Ideal) ((c.tc : Thread nD τ).loc main_arg8) := m ((c.tc : Thread nD τ).loc main_arg8)
abbrev a9 : Buf (Elt Ideal) ((c.tc : Thread nD τ).loc main_arg9) := m ((c.tc : Thread nD τ).loc main_arg9)

/-- One buffer after a stretch of host operations: the fold through the stretch, each operation's result at its own
    buffer and every other buffer as it was. -/
local macro "read_after" W:ident ops:ident : tactic =>
  `(tactic| (dsimp only [$W:ident, $ops:ident]; after_results_simp))

/-! ## Boundary 1: after the first stretch (edge endpoints, degree, inverse square root, edge weights, the column of
    squared inverse square roots) -/

theorem w1_v1 : W1 m ρ c (Proc.devRef .tc main_v1) = val_main_v1 (F := Ideal) (a1 m c) := by
  read_after W1 hostOps0; rfl
theorem w1_v3 : W1 m ρ c (Proc.devRef .tc main_v3) = val_main_v3 (F := Ideal) (a1 m c) := by
  read_after W1 hostOps0; rfl
theorem w1_v25 : W1 m ρ c (Proc.devRef .tc main_v25) = val_main_v26 (F := Ideal) (a1 m c) := by
  read_after W1 hostOps0; rfl
/-- The column of squared inverse square roots: the kernel program casts the vector to [100000, 1], the reference
    broadcasts it there; one array. -/
theorem w1_v27 : W1 m ρ c (Proc.devRef .tc main_v27) = val_main_v41 (F := Ideal) (a1 m c) :=
  (show W1 m ρ c (Proc.devRef .tc main_v27)
      = shapeCast S100000x1 (val_main_v40 (F := Ideal) (a1 m c)) shapeCasts_S100000_S100000x1 by
    read_after W1 hostOps0; rfl).trans (Cert.LibColumn.shapeCast_col_eq_broadcastInDim _ _ _)
theorem w1_arg0 : W1 m ρ c (Proc.devRef .tc main_arg0) = (a0 m c) := by read_after W1 hostOps0; try rfl
theorem w1_arg4 : W1 m ρ c (Proc.devRef .tc main_arg4) = (a4 m c) := by read_after W1 hostOps0; try rfl
theorem w1_arg5 : W1 m ρ c (Proc.devRef .tc main_arg5) = (a5 m c) := by read_after W1 hostOps0; try rfl
theorem w1_arg6 : W1 m ρ c (Proc.devRef .tc main_arg6) = (a6 m c) := by read_after W1 hostOps0; try rfl
theorem w1_arg7 : W1 m ρ c (Proc.devRef .tc main_arg7) = (a7 m c) := by read_after W1 hostOps0; try rfl

/-! ## Boundary 2: after region 0 (X · W1) -/

theorem w2_v28 (hR : RegionFacts) : W2 m ρ c (Proc.devRef .tc main_v28) = val_main_v11 (F := Ideal) (a0 m c) (a4 m c) :=
  (W2_arr m ρ c 2).trans ((hR.mm0 (V1 m ρ) c).trans (by
    rw [show V1 m ρ c main_arg0 = (a0 m c) from w1_arg0 m ρ c, show V1 m ρ c main_arg4 = (a4 m c) from w1_arg4 m ρ c]; rfl))
theorem w2_v1 : W2 m ρ c (Proc.devRef .tc main_v1) = val_main_v1 (F := Ideal) (a1 m c) :=
  (W2_of_ne m ρ c main_v1 (by decide)).trans (w1_v1 m ρ c)
theorem w2_v3 : W2 m ρ c (Proc.devRef .tc main_v3) = val_main_v3 (F := Ideal) (a1 m c) :=
  (W2_of_ne m ρ c main_v3 (by decide)).trans (w1_v3 m ρ c)
theorem w2_v25 : W2 m ρ c (Proc.devRef .tc main_v25) = val_main_v26 (F := Ideal) (a1 m c) :=
  (W2_of_ne m ρ c main_v25 (by decide)).trans (w1_v25 m ρ c)
theorem w2_v27 : W2 m ρ c (Proc.devRef .tc main_v27) = val_main_v41 (F := Ideal) (a1 m c) :=
  (W2_of_ne m ρ c main_v27 (by decide)).trans (w1_v27 m ρ c)
theorem w2_arg5 : W2 m ρ c (Proc.devRef .tc main_arg5) = (a5 m c) :=
  (W2_of_ne m ρ c main_arg5 (by decide)).trans (w1_arg5 m ρ c)
theorem w2_arg6 : W2 m ρ c (Proc.devRef .tc main_arg6) = (a6 m c) :=
  (W2_of_ne m ρ c main_arg6 (by decide)).trans (w1_arg6 m ρ c)
theorem w2_arg7 : W2 m ρ c (Proc.devRef .tc main_arg7) = (a7 m c) :=
  (W2_of_ne m ρ c main_arg7 (by decide)).trans (w1_arg7 m ρ c)

/-! ## Boundary 3: after the second stretch (layer 1's gather, weighting and scatter-add; the bias row) -/

theorem w3_v41 (hR : RegionFacts) : W3 m ρ c (Proc.devRef .tc main_v41) = val_main_v39 (F := Ideal) (a0 m c) (a1 m c) (a4 m c) := by
  read_after W3 hostOps1
  rw [w2_v28 m ρ c hR, w2_v1 m ρ c, w2_v3 m ρ c, w2_v25 m ρ c]; rfl
/-- The bias row: the kernel program casts the vector to [1, 64], the reference broadcasts it there; one array. -/
theorem w3_v42 : W3 m ρ c (Proc.devRef .tc main_v42) = val_main_v45 (F := Ideal) (a5 m c) :=
  (show W3 m ρ c (Proc.devRef .tc main_v42) = shapeCast S1x64 (a5 m c) shapeCasts_S64_S1x64 by
    read_after W3 hostOps1; rw [w2_arg5 m ρ c]; rfl).trans (Cert.LibRow.shapeCast_row_eq_broadcastInDim _ _ _)
theorem w3_v28 (hR : RegionFacts) : W3 m ρ c (Proc.devRef .tc main_v28) = val_main_v11 (F := Ideal) (a0 m c) (a4 m c) := by
  read_after W3 hostOps1; exact w2_v28 m ρ c hR
theorem w3_v27 : W3 m ρ c (Proc.devRef .tc main_v27) = val_main_v41 (F := Ideal) (a1 m c) := by
  read_after W3 hostOps1; exact w2_v27 m ρ c
theorem w3_v1 : W3 m ρ c (Proc.devRef .tc main_v1) = val_main_v1 (F := Ideal) (a1 m c) := by
  read_after W3 hostOps1; exact w2_v1 m ρ c
theorem w3_v3 : W3 m ρ c (Proc.devRef .tc main_v3) = val_main_v3 (F := Ideal) (a1 m c) := by
  read_after W3 hostOps1; exact w2_v3 m ρ c
theorem w3_v25 : W3 m ρ c (Proc.devRef .tc main_v25) = val_main_v26 (F := Ideal) (a1 m c) := by
  read_after W3 hostOps1; exact w2_v25 m ρ c
theorem w3_arg6 : W3 m ρ c (Proc.devRef .tc main_arg6) = (a6 m c) := by
  read_after W3 hostOps1; exact w2_arg6 m ρ c
theorem w3_arg7 : W3 m ρ c (Proc.devRef .tc main_arg7) = (a7 m c) := by
  read_after W3 hostOps1; exact w2_arg7 m ρ c

/-! ## Boundary 4: after region 1 (layer 1's combine) -/

theorem w4_v43 (hR : RegionFacts) : W4 m ρ c (Proc.devRef .tc main_v43) = val_main_v48 (F := Ideal) (a0 m c) (a1 m c) (a4 m c) (a5 m c) :=
  (W4_arr m ρ c 4).trans ((hR.cb1 (V3 m ρ) c).trans (by
    rw [show V3 m ρ c main_v41 = _ from w3_v41 m ρ c hR, show V3 m ρ c main_v28 = _ from w3_v28 m ρ c hR,
      show V3 m ρ c main_v27 = _ from w3_v27 m ρ c, show V3 m ρ c main_v42 = _ from w3_v42 m ρ c]; rfl))
theorem w4_v1 : W4 m ρ c (Proc.devRef .tc main_v1) = val_main_v1 (F := Ideal) (a1 m c) :=
  (W4_of_ne m ρ c main_v1 (by decide)).trans (w3_v1 m ρ c)
theorem w4_v3 : W4 m ρ c (Proc.devRef .tc main_v3) = val_main_v3 (F := Ideal) (a1 m c) :=
  (W4_of_ne m ρ c main_v3 (by decide)).trans (w3_v3 m ρ c)
theorem w4_v25 : W4 m ρ c (Proc.devRef .tc main_v25) = val_main_v26 (F := Ideal) (a1 m c) :=
  (W4_of_ne m ρ c main_v25 (by decide)).trans (w3_v25 m ρ c)
/-- The column is an input of region 1: its array ends as entered. -/
theorem w4_v27 : W4 m ρ c (Proc.devRef .tc main_v27) = val_main_v41 (F := Ideal) (a1 m c) :=
  (W4_arr m ρ c 2).trans (((dat1 (V3 m ρ) c).arrAt_in 2 rfl _).trans ((A_eq1 (V3 m ρ) c 2).trans (w3_v27 m ρ c)))
theorem w4_arg6 : W4 m ρ c (Proc.devRef .tc main_arg6) = (a6 m c) :=
  (W4_of_ne m ρ c main_arg6 (by decide)).trans (w3_arg6 m ρ c)
theorem w4_arg7 : W4 m ρ c (Proc.devRef .tc main_arg7) = (a7 m c) :=
  (W4_of_ne m ρ c main_arg7 (by decide)).trans (w3_arg7 m ρ c)

/-! ## Boundary 5: after region 2 (H · W2) -/

theorem w5_v44 (hR : RegionFacts) : W5 m ρ c (Proc.devRef .tc main_v44) = val_main_v49 (F := Ideal) (a0 m c) (a1 m c) (a4 m c) (a5 m c) (a6 m c) :=
  (W5_arr m ρ c 2).trans ((hR.mm2 (V4 m ρ) c).trans (by
    rw [show V4 m ρ c main_v43 = _ from w4_v43 m ρ c hR, show V4 m ρ c main_arg6 = (a6 m c) from w4_arg6 m ρ c]; rfl))
theorem w5_v1 : W5 m ρ c (Proc.devRef .tc main_v1) = val_main_v1 (F := Ideal) (a1 m c) :=
  (W5_of_ne m ρ c main_v1 (by decide)).trans (w4_v1 m ρ c)
theorem w5_v3 : W5 m ρ c (Proc.devRef .tc main_v3) = val_main_v3 (F := Ideal) (a1 m c) :=
  (W5_of_ne m ρ c main_v3 (by decide)).trans (w4_v3 m ρ c)
theorem w5_v25 : W5 m ρ c (Proc.devRef .tc main_v25) = val_main_v26 (F := Ideal) (a1 m c) :=
  (W5_of_ne m ρ c main_v25 (by decide)).trans (w4_v25 m ρ c)
theorem w5_v27 : W5 m ρ c (Proc.devRef .tc main_v27) = val_main_v41 (F := Ideal) (a1 m c) :=
  (W5_of_ne m ρ c main_v27 (by decide)).trans (w4_v27 m ρ c)
theorem w5_arg7 : W5 m ρ c (Proc.devRef .tc main_arg7) = (a7 m c) :=
  (W5_of_ne m ρ c main_arg7 (by decide)).trans (w4_arg7 m ρ c)

/-! ## Boundary 6: after the third stretch (layer 2's gather, weighting and scatter-add; the bias row). The kernel
    program reuses layer 1's edge weights; the reference computes them again by the same operations. -/

theorem w6_v57 (hR : RegionFacts) : W6 m ρ c (Proc.devRef .tc main_v57) = val_main_v77 (F := Ideal) (a0 m c) (a1 m c) (a4 m c) (a5 m c) (a6 m c) := by
  read_after W6 hostOps3
  rw [w5_v44 m ρ c hR, w5_v1 m ρ c, w5_v3 m ρ c, w5_v25 m ρ c]; rfl
theorem w6_v58 : W6 m ρ c (Proc.devRef .tc main_v58) = val_main_v83 (F := Ideal) (a7 m c) :=
  (show W6 m ρ c (Proc.devRef .tc main_v58) = shapeCast S1x64 (a7 m c) shapeCasts_S64_S1x64 by
    read_after W6 hostOps3; rw [w5_arg7 m ρ c]; rfl).trans (Cert.LibRow.shapeCast_row_eq_broadcastInDim _ _ _)
theorem w6_v44 (hR : RegionFacts) : W6 m ρ c (Proc.devRef .tc main_v44) = val_main_v49 (F := Ideal) (a0 m c) (a1 m c) (a4 m c) (a5 m c) (a6 m c) := by
  read_after W6 hostOps3; exact w5_v44 m ρ c hR
theorem w6_v27 : W6 m ρ c (Proc.devRef .tc main_v27) = val_main_v79 (F := Ideal) (a1 m c) := by
  read_after W6 hostOps3; exact w5_v27 m ρ c

/-! ## The arguments read late, walked back from the end of @main (where every argument is as launched) -/

theorem w9_arg9 : W9 m ρ c (Proc.devRef .tc main_arg9) = (a9 m c) :=
  (show W10 m ρ c (Proc.devRef .tc main_arg9) = W9 m ρ c (Proc.devRef .tc main_arg9) by
    read_after W10 hostOps5).symm.trans (W10_main_arg9 m ρ c)
theorem w9_arg8 : W9 m ρ c (Proc.devRef .tc main_arg8) = (a8 m c) :=
  (show W10 m ρ c (Proc.devRef .tc main_arg8) = W9 m ρ c (Proc.devRef .tc main_arg8) by
    read_after W10 hostOps5).symm.trans (W10_main_arg8 m ρ c)
theorem w9_arg2 : W9 m ρ c (Proc.devRef .tc main_arg2) = (a2 m c) :=
  (show W10 m ρ c (Proc.devRef .tc main_arg2) = W9 m ρ c (Proc.devRef .tc main_arg2) by
    read_after W10 hostOps5).symm.trans (W10_main_arg2 m ρ c)
theorem w9_arg3 : W9 m ρ c (Proc.devRef .tc main_arg3) = (a3 m c) :=
  (show W10 m ρ c (Proc.devRef .tc main_arg3) = W9 m ρ c (Proc.devRef .tc main_arg3) by
    read_after W10 hostOps5).symm.trans (W10_main_arg3 m ρ c)
/-- The head's weights are an input of region 4: their array ends as entered. -/
theorem w8_arg8 : W8 m ρ c (Proc.devRef .tc main_arg8) = (a8 m c) :=
  ((W9_arr m ρ c 1).trans (((dat4 (V8 m ρ) c).arrAt_in 1 rfl _).trans (A_eq4 (V8 m ρ) c 1))).symm.trans (w9_arg8 m ρ c)
theorem w8_arg2 : W8 m ρ c (Proc.devRef .tc main_arg2) = (a2 m c) :=
  (W9_of_ne m ρ c main_arg2 (by decide)).symm.trans (w9_arg2 m ρ c)
theorem w8_arg3 : W8 m ρ c (Proc.devRef .tc main_arg3) = (a3 m c) :=
  (W9_of_ne m ρ c main_arg3 (by decide)).symm.trans (w9_arg3 m ρ c)
theorem w7_arg2 : W7 m ρ c (Proc.devRef .tc main_arg2) = (a2 m c) :=
  (show W8 m ρ c (Proc.devRef .tc main_arg2) = W7 m ρ c (Proc.devRef .tc main_arg2) by
    read_after W8 hostOps4).symm.trans (w8_arg2 m ρ c)
theorem w7_arg3 : W7 m ρ c (Proc.devRef .tc main_arg3) = (a3 m c) :=
  (show W8 m ρ c (Proc.devRef .tc main_arg3) = W7 m ρ c (Proc.devRef .tc main_arg3) by
    read_after W8 hostOps4).symm.trans (w8_arg3 m ρ c)

/-! ## Boundary 7: after region 3 (layer 2's combine) -/

theorem w7_v59 (hR : RegionFacts) : W7 m ρ c (Proc.devRef .tc main_v59) = val_main_v86 (F := Ideal) (a0 m c) (a1 m c) (a4 m c) (a5 m c) (a6 m c) (a7 m c) :=
  (W7_arr m ρ c 4).trans ((hR.cb3 (V6 m ρ) c).trans (by
    rw [show V6 m ρ c main_v57 = _ from w6_v57 m ρ c hR, show V6 m ρ c main_v44 = _ from w6_v44 m ρ c hR,
      show V6 m ρ c main_v27 = _ from w6_v27 m ρ c, show V6 m ρ c main_v58 = _ from w6_v58 m ρ c]; rfl))

/-! ## Boundary 8: after the fourth stretch (the mean pool over graphs, joined with the topology features) -/

theorem w8_v72 (hR : RegionFacts) : W8 m ρ c (Proc.devRef .tc main_v72) = val_main_v99 (F := Ideal) (a0 m c) (a1 m c) (a2 m c) (a3 m c) (a4 m c) (a5 m c) (a6 m c) (a7 m c) := by
  dsimp only [W8, hostOps4]
  after_results
  rw [w7_v59 m ρ c hR, w7_arg2 m ρ c, w7_arg3 m ρ c]; rfl

/-! ## Boundary 9: after region 4 (the head's product) -/

theorem w9_v73 (hR : RegionFacts) : W9 m ρ c (Proc.devRef .tc main_v73) = val_main_v100 (F := Ideal) (a0 m c) (a1 m c) (a2 m c) (a3 m c) (a4 m c) (a5 m c) (a6 m c) (a7 m c) (a8 m c) :=
  (W9_arr m ρ c 2).trans ((hR.mm4 (V8 m ρ) c).trans (by
    rw [show V8 m ρ c main_v72 = _ from w8_v72 m ρ c hR, show V8 m ρ c main_arg8 = (a8 m c) from w8_arg8 m ρ c]; rfl))

/-! ## The result: after the last stretch (the head's bias added) -/

theorem result (hR : RegionFacts) :
    W10 m ρ c (Proc.devRef .tc main_v76) = val_main_v103 (F := Ideal) (a0 m c) (a1 m c) (a2 m c) (a3 m c) (a4 m c) (a5 m c) (a6 m c) (a7 m c) (a8 m c) (a9 m c) := by
  read_after W10 hostOps5
  rw [w9_v73 m ρ c hR, w9_arg9 m ρ c]; rfl

end Cert.KernelIdeal.Fold

end
-- ==== Proof.MatmulRegion0.lean ====
import proofs.«131117_j51857435132133_1_alg».proof.Proof.Gen.KernelIdeal.Frame
import proofs.«131117_j51857435132133_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Idealize.ShloMosaic Idealize.ShloMosaic.TcCoe Idealize.SL.Sem Idealize.ShloMosaic.Pipeline

variable (V : (c : Dev nD) → (b : Ref sig .tc) → Buf (Elt Ideal) ((c : Thread nD τ).loc b))

/-- A block stored at offsets (0, 0) starts at the origin. -/
theorem input_zero_offsets : (![0, 0] : Fin 2 → Nat) = fun _ => 0 := funext fun a => by fin_cases a <;> rfl

/-! ## Region 0: X @ W1, ten row tiles of 10000 rows -/

/-- The row coordinate of the left operand's index, for the tile product's dimension record. -/
theorem tile_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- The column coordinate of the right operand's index. -/
theorem tile_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The tile product into a zero accumulator at row `p`, column `q`: the sum over the contraction coordinate `k`
    of the left tile at (p, k) times the right tile at (k, q); narrowing to bf16 changes no ideal value. -/
theorem tile_product_apply (x0 : Vec Ideal S10000x64 .f32) (x1 : Vec Ideal S64x64 .f32) (p : Fin 10000) (q : Fin 64) :
    Gen.k0_pay1 x0 x1 (ValueIdx.ix2 p q) = ∑ k : Fin 64, x0 (ValueIdx.ix2 p k) * x1 (ValueIdx.ix2 k q) := by
  unfold Gen.k0_pay1
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ValueIdx.ix2 p q) ((ValueIdx.contrEquiv1 dot_S10000x64_S64x64_S10000x64_1_0_0_1_n_n 64 rfl rfl).symm k) = ValueIdx.ix2 p k := funext fun a => Fin.ext (by
    match a with
    | ⟨0, _⟩ => exact tile_lhs_row _ _
    | ⟨1, _⟩ => exact (dot_S10000x64_S64x64_S10000x64_1_0_0_1_n_n.lhsIdx_val_of_single rfl _ _).trans hk)
  have er : dot_S10000x64_S64x64_S10000x64_1_0_0_1_n_n.rhsIdx (ValueIdx.ix2 p q) ((ValueIdx.contrEquiv1 dot_S10000x64_S64x64_S10000x64_1_0_0_1_n_n 64 rfl rfl).symm k) = ValueIdx.ix2 k q := funext fun a => Fin.ext (by
    match a with
    | ⟨0, _⟩ => exact (dot_S10000x64_S64x64_S10000x64_1_0_0_1_n_n.rhsIdx_val_of_single rfl _ _).trans hk
    | ⟨1, _⟩ => exact tile_rhs_col _ _)
  rw [el, er]
  rfl

/-- The row coordinate of the left operand's index, for the host product's dimension record. -/
theorem host_lhs_row (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl

/-- The column coordinate of the right operand's index. -/
theorem host_rhs_col (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The whole 100000×64 by 64×64 product at row `r`, column `q`: the sum over `k` of X (r, k) · W (k, q). -/
theorem host_product_apply (X : FVec Ideal Cert.ReferenceIdeal.S100000x64 .f32) (W : FVec Ideal Cert.ReferenceIdeal.S64x64 .f32) (r : Fin 100000) (q : Fin 64) :
    Host.dotGeneral (F := Ideal) Cert.ReferenceIdeal.dot_S100000x64_S64x64_S100000x64_1_0_0_1_n_n none X W (ValueIdx.ix2 r q)
      = ∑ k : Fin 64, X (ValueIdx.ix2 r k) * W (ValueIdx.ix2 k q) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ValueIdx.ix2 r q) ((ValueIdx.contrEquiv1 Cert.ReferenceIdeal.dot_S100000x64_S64x64_S100000x64_1_0_0_1_n_n 64 rfl rfl).symm k) = ValueIdx.ix2 r k := funext fun a => Fin.ext (by
    match a with
    | ⟨0, _⟩ => exact host_lhs_row _ _
    | ⟨1, _⟩ => exact (Cert.ReferenceIdeal.dot_S100000x64_S64x64_S100000x64_1_0_0_1_n_n.lhsIdx_val_of_single rfl _ _).trans hk)
  have er : Cert.ReferenceIdeal.dot_S100000x64_S64x64_S100000x64_1_0_0_1_n_n.rhsIdx (ValueIdx.ix2 r q) ((ValueIdx.contrEquiv1 Cert.ReferenceIdeal.dot_S100000x64_S64x64_S100000x64_1_0_0_1_n_n 64 rfl rfl).symm k) = ValueIdx.ix2 k q := funext fun a => Fin.ext (by
    match a with
    | ⟨0, _⟩ => exact (Cert.ReferenceIdeal.dot_S100000x64_S64x64_S100000x64_1_0_0_1_n_n.rhsIdx_val_of_single rfl _ _).trans hk
    | ⟨1, _⟩ => exact host_rhs_col _ _)
  rw [el, er]

/-- The windows' block indices over the grid: the two row-tiled windows sit at row block `t`, column block 0;
    the weight window is its whole array at every point. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the whole product X @ W1 of the arrays the region finds. -/
theorem flushed0_eq (c : Dev nD) (t : Fin cfg0.N) :
    (Gen.dat0 (F := Ideal) V c).flushed 2 t = ((cfg0.win 2).blk t).view.read (Elt Ideal)
      (Host.dotGeneral (F := Ideal) (φ₁ := .f32) (φ₂ := .f32) Cert.ReferenceIdeal.dot_S100000x64_S64x64_S100000x64_1_0_0_1_n_n none (V c main_arg0) (V c main_arg4)) := by
  show (cfg0.win 2).cut (grid0.coords t) ((Gen.dat0 V c).after 2 t) = _
  rw [Gen.after0_2]
  unfold Gen.out0_2
  rw [View.canon_unit_zero input_zero_offsets]
  simp only [View.ld_unit_zero (S := S10000x64) input_zero_offsets, View.ld_unit_zero (S := S64x64) input_zero_offsets]
  funext j
  obtain ⟨p, q, rfl⟩ : ∃ (p : Fin 10000) (q : Fin 64), j = ValueIdx.ix2 p q := ⟨j 0, j 1, ValueIdx.eq_ix2 j⟩
  refine (tile_product_apply _ _ p q).trans ?_
  rw [View.read_apply]
  obtain ⟨e00, e01, e10, e11, e20, e21⟩ := block_indices0 t
  have hN : cfg0.N = 10 := Gen.N_0
  have ht : t.val < 10 := by have := t.isLt; omega
  have hp : p.val < 10000 := p.isLt
  have hrow : ((cfg0.win 2).blk t).view.emb (ValueIdx.ix2 p q) = ValueIdx.ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  rw [hrow, host_product_apply]
  refine Finset.sum_congr rfl fun k _ => ?_
  unfold Gen.iblk0
  rw [View.read_apply, View.read_apply]
  have h0 : ((cfg0.win 0).blk t).view.emb (ValueIdx.ix2 p k) = ValueIdx.ix2 (⟨t.val * 10000 + p.val, by omega⟩ : Fin 100000) k := by
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  have h1 : ((cfg0.win 1).blk t).view.emb (ValueIdx.ix2 k q) = ValueIdx.ix2 k q := by
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  rw [h0, h1]
  rfl

/-- An index of the product array is in point `t`'s block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v28).slice (win0_2.rect t)).set ↔ _
  rw [View.set_slice_whole, Rect.mem_set_unit]
  exact Iff.rfl

/-- The ten row tiles cover the product array: row `r` lies in the tile of grid point `r / 10000`. -/
theorem cover0 (i : S100000x64.Idx) :
    ∃ t : Fin cfg0.N, (cfg0.win 2).flush t = true ∧ i ∈ ((cfg0.win 2).blk t).view.set := by
  have hN : cfg0.N = 10 := Gen.N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by omega⟩, rfl⟩
  obtain ⟨_, _, _, _, e20, e21⟩ := block_indices0 t
  refine ⟨t, Gen.flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- Region 0's output array after its ten grid points is the whole product X @ W1 of the arrays the region finds. -/
theorem matmul0 (c : Dev nD) :
    (Gen.dat0 (F := Ideal) V c).arrAt 2 cfg0.N
      = Host.dotGeneral (F := Ideal) (φ₁ := .f32) (φ₂ := .f32) Cert.ReferenceIdeal.dot_S100000x64_S64x64_S100000x64_1_0_0_1_n_n none (V c main_arg0) (V c main_arg4) :=
  (Gen.dat0 (F := Ideal) V c).arrAt_eq_of_cover 2 _ (fun t _ => flushed0_eq V c t) cover0

end Cert.KernelIdeal.RegionValue

end
-- ==== Proof.MatmulRegion2.lean ====
import proofs.«131117_j51857435132133_1_alg».proof.Proof.Gen.KernelIdeal.Frame
import proofs.«131117_j51857435132133_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Idealize.ShloMosaic Idealize.ShloMosaic.TcCoe Idealize.SL.Sem Idealize.ShloMosaic.Pipeline

variable (V : (c : Dev nD) → (b : Ref sig .tc) → Buf (Elt Ideal) ((c : Thread nD τ).loc b))

/-- A block stored at offsets (0, 0) starts at the origin. -/
theorem hidden_zero_offsets : (![0, 0] : Fin 2 → Nat) = fun _ => 0 := funext fun a => by fin_cases a <;> rfl

/-! ## Region 2: H @ W2, ten row tiles of 10000 rows -/

/-- The row coordinate of the left operand's index, for the tile product's dimension record. -/
theorem hidden_tile_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- The column coordinate of the right operand's index. -/
theorem hidden_tile_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The tile product into a zero accumulator at row `p`, column `q`: the sum over the contraction coordinate `k`
    of the left tile at (p, k) times the right tile at (k, q); the cast of the left tile to its own shape is the identity and narrowing to bf16 changes no ideal value. -/
theorem hidden_tile_product_apply (x0 : Vec Ideal S10000x64 .f32) (x1 : Vec Ideal S64x64 .f32) (p : Fin 10000) (q : Fin 64) :
    Gen.k2_pay1 x0 x1 (ValueIdx.ix2 p q) = ∑ k : Fin 64, x0 (ValueIdx.ix2 p k) * x1 (ValueIdx.ix2 k q) := by
  unfold Gen.k2_pay1
  simp only [matmul, shapeCast_self]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ValueIdx.ix2 p q) ((ValueIdx.contrEquiv1 dot_S10000x64_S64x64_S10000x64_1_0_0_1_n_n 64 rfl rfl).symm k) = ValueIdx.ix2 p k := funext fun a => Fin.ext (by
    match a with
    | ⟨0, _⟩ => exact hidden_tile_lhs_row _ _
    | ⟨1, _⟩ => exact (dot_S10000x64_S64x64_S10000x64_1_0_0_1_n_n.lhsIdx_val_of_single rfl _ _).trans hk)
  have er : dot_S10000x64_S64x64_S10000x64_1_0_0_1_n_n.rhsIdx (ValueIdx.ix2 p q) ((ValueIdx.contrEquiv1 dot_S10000x64_S64x64_S10000x64_1_0_0_1_n_n 64 rfl rfl).symm k) = ValueIdx.ix2 k q := funext fun a => Fin.ext (by
    match a with
    | ⟨0, _⟩ => exact (dot_S10000x64_S64x64_S10000x64_1_0_0_1_n_n.rhsIdx_val_of_single rfl _ _).trans hk
    | ⟨1, _⟩ => exact hidden_tile_rhs_col _ _)
  rw [el, er]
  rfl

/-- The row coordinate of the left operand's index, for the host product's dimension record. -/
theorem hidden_host_lhs_row (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl

/-- The column coordinate of the right operand's index. -/
theorem hidden_host_rhs_col (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The whole 100000×64 by 64×64 product at row `r`, column `q`: the sum over `k` of X (r, k) · W (k, q). -/
theorem hidden_host_product_apply (X : FVec Ideal Cert.ReferenceIdeal.S100000x64 .f32) (W : FVec Ideal Cert.ReferenceIdeal.S64x64 .f32) (r : Fin 100000) (q : Fin 64) :
    Host.dotGeneral (F := Ideal) Cert.ReferenceIdeal.dot_S100000x64_S64x64_S100000x64_1_0_0_1_n_n none X W (ValueIdx.ix2 r q)
      = ∑ k : Fin 64, X (ValueIdx.ix2 r k) * W (ValueIdx.ix2 k q) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ValueIdx.ix2 r q) ((ValueIdx.contrEquiv1 Cert.ReferenceIdeal.dot_S100000x64_S64x64_S100000x64_1_0_0_1_n_n 64 rfl rfl).symm k) = ValueIdx.ix2 r k := funext fun a => Fin.ext (by
    match a with
    | ⟨0, _⟩ => exact hidden_host_lhs_row _ _
    | ⟨1, _⟩ => exact (Cert.ReferenceIdeal.dot_S100000x64_S64x64_S100000x64_1_0_0_1_n_n.lhsIdx_val_of_single rfl _ _).trans hk)
  have er : Cert.ReferenceIdeal.dot_S100000x64_S64x64_S100000x64_1_0_0_1_n_n.rhsIdx (ValueIdx.ix2 r q) ((ValueIdx.contrEquiv1 Cert.ReferenceIdeal.dot_S100000x64_S64x64_S100000x64_1_0_0_1_n_n 64 rfl rfl).symm k) = ValueIdx.ix2 k q := funext fun a => Fin.ext (by
    match a with
    | ⟨0, _⟩ => exact (Cert.ReferenceIdeal.dot_S100000x64_S64x64_S100000x64_1_0_0_1_n_n.rhsIdx_val_of_single rfl _ _).trans hk
    | ⟨1, _⟩ => exact hidden_host_rhs_col _ _)
  rw [el, er]

/-- The windows' block indices over the grid: the two row-tiled windows sit at row block `t`, column block 0;
    the weight window is its whole array at every point. -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the whole product H @ W2 of the arrays the region finds. -/
theorem flushed2_eq (c : Dev nD) (t : Fin cfg2.N) :
    (Gen.dat2 (F := Ideal) V c).flushed 2 t = ((cfg2.win 2).blk t).view.read (Elt Ideal)
      (Host.dotGeneral (F := Ideal) (φ₁ := .f32) (φ₂ := .f32) Cert.ReferenceIdeal.dot_S100000x64_S64x64_S100000x64_1_0_0_1_n_n none (V c main_v43) (V c main_arg6)) := by
  show (cfg2.win 2).cut (grid2.coords t) ((Gen.dat2 V c).after 2 t) = _
  rw [Gen.after2_2]
  unfold Gen.out2_2
  rw [View.canon_unit_zero hidden_zero_offsets]
  simp only [View.ld_unit_zero (S := S10000x64) hidden_zero_offsets, View.ld_unit_zero (S := S64x64) hidden_zero_offsets]
  funext j
  obtain ⟨p, q, rfl⟩ : ∃ (p : Fin 10000) (q : Fin 64), j = ValueIdx.ix2 p q := ⟨j 0, j 1, ValueIdx.eq_ix2 j⟩
  refine (hidden_tile_product_apply _ _ p q).trans ?_
  rw [View.read_apply]
  obtain ⟨e00, e01, e10, e11, e20, e21⟩ := block_indices2 t
  have hN : cfg2.N = 10 := Gen.N_2
  have ht : t.val < 10 := by have := t.isLt; omega
  have hp : p.val < 10000 := p.isLt
  have hrow : ((cfg2.win 2).blk t).view.emb (ValueIdx.ix2 p q) = ValueIdx.ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  rw [hrow, hidden_host_product_apply]
  refine Finset.sum_congr rfl fun k _ => ?_
  unfold Gen.iblk2
  rw [View.read_apply, View.read_apply]
  have h0 : ((cfg2.win 0).blk t).view.emb (ValueIdx.ix2 p k) = ValueIdx.ix2 (⟨t.val * 10000 + p.val, by omega⟩ : Fin 100000) k := by
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  have h1 : ((cfg2.win 1).blk t).view.emb (ValueIdx.ix2 k q) = ValueIdx.ix2 k q := by
    funext a; apply Fin.ext
    match a with
    | ⟨0, _⟩ => show win2_1.index t (0 : Fin 2) * 64 + 1 * k.val = k.val; omega
    | ⟨1, _⟩ => show win2_1.index t (1 : Fin 2) * 64 + 1 * q.val = q.val; omega
  rw [h0, h1]
  rfl

/-- An index of the product array is in point `t`'s block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- The ten row tiles cover the product array: row `r` lies in the tile of grid point `r / 10000`. -/
theorem cover2 (i : S100000x64.Idx) :
    ∃ t : Fin cfg2.N, (cfg2.win 2).flush t = true ∧ i ∈ ((cfg2.win 2).blk t).view.set := by
  have hN : cfg2.N = 10 := Gen.N_2
  have hi0 : (i 0).val < 100000 := (i 0).isLt
  have hi1 : (i 1).val < 64 := (i 1).isLt
  obtain ⟨t, ht⟩ : ∃ t : Fin cfg2.N, t.val = (i 0).val / 10000 := ⟨⟨(i 0).val / 10000, by omega⟩, rfl⟩
  obtain ⟨_, _, _, _, e20, e21⟩ := block_indices2 t
  refine ⟨t, Gen.flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- Region 2's output array after its ten grid points is the whole product H @ W2 of the arrays the region finds. -/
theorem matmul2 (c : Dev nD) :
    (Gen.dat2 (F := Ideal) V c).arrAt 2 cfg2.N
      = Host.dotGeneral (F := Ideal) (φ₁ := .f32) (φ₂ := .f32) Cert.ReferenceIdeal.dot_S100000x64_S64x64_S100000x64_1_0_0_1_n_n none (V c main_v43) (V c main_arg6) :=
  (Gen.dat2 (F := Ideal) V c).arrAt_eq_of_cover 2 _ (fun t _ => flushed2_eq V c t) cover2

end Cert.KernelIdeal.RegionValue

end
-- ==== Proof.MatmulRegion4.lean ====
import proofs.«131117_j51857435132133_1_alg».proof.Proof.Gen.KernelIdeal.Frame
import proofs.«131117_j51857435132133_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Idealize.ShloMosaic Idealize.ShloMosaic.TcCoe Idealize.SL.Sem Idealize.ShloMosaic.Pipeline

variable (V : (c : Dev nD) → (b : Ref sig .tc) → Buf (Elt Ideal) ((c : Thread nD τ).loc b))

/-- A block stored at offsets (0, 0) starts at the origin. -/
theorem head_zero_offsets : (![0, 0] : Fin 2 → Nat) = fun _ => 0 := funext fun a => by fin_cases a <;> rfl

/-! ## Region 4: the 64×80 by 80×4 head product, one grid point, every block its whole array -/

/-- The row coordinate of the left operand's index, for the head product's dimension record. -/
theorem head_tile_lhs_row (i : S64x4.Idx) (q : dot_S64x80_S80x4_S64x4_1_0_0_1_n_n.contr.Idx) :
    (dot_S64x80_S80x4_S64x4_1_0_0_1_n_n.lhsIdx i q 0).val = (i 0).val := by
  unfold DotDims.lhsIdx
  rw [dif_neg (show ¬(0 : Fin S64x80.rank) ∈ dot_S64x80_S80x4_S64x4_1_0_0_1_n_n.lhsBatch by decide), dif_pos (show (0 : Fin S64x80.rank) ∈ dot_S64x80_S80x4_S64x4_1_0_0_1_n_n.lhsNonContracting by decide)]
  rfl

/-- The column coordinate of the right operand's index. -/
theorem head_tile_rhs_col (i : S64x4.Idx) (q : dot_S64x80_S80x4_S64x4_1_0_0_1_n_n.contr.Idx) :
    (dot_S64x80_S80x4_S64x4_1_0_0_1_n_n.rhsIdx i q 1).val = (i 1).val := by
  unfold DotDims.rhsIdx
  rw [dif_neg (show ¬(1 : Fin S80x4.rank) ∈ dot_S64x80_S80x4_S64x4_1_0_0_1_n_n.rhsBatch by decide), dif_pos (show (1 : Fin S80x4.rank) ∈ dot_S64x80_S80x4_S64x4_1_0_0_1_n_n.rhsNonContracting by decide)]
  rfl

/-- The head product into a zero accumulator at row `p`, column `q`: the sum over the contraction coordinate `k`
    of the left operand at (p, k) times the right operand at (k, q); the cast of the left operand to its own shape is
    the identity and narrowing to bf16 changes no ideal value. -/
theorem head_tile_product_apply (x0 : Vec Ideal S64x80 .f32) (x1 : Vec Ideal S80x4 .f32) (p : Fin 64) (q : Fin 4) :
    Gen.k4_pay1 x0 x1 (ValueIdx.ix2 p q) = ∑ k : Fin 80, x0 (ValueIdx.ix2 p k) * x1 (ValueIdx.ix2 k q) := by
  unfold Gen.k4_pay1
  simp only [matmul, shapeCast_self]
  rw [Ideal.matmul_constant_zero_apply, ← Equiv.sum_comp (ValueIdx.contrEquiv1 dot_S64x80_S80x4_S64x4_1_0_0_1_n_n 80 rfl rfl).symm]
  refine Finset.sum_congr rfl fun k _ => ?_
  have hk := ValueIdx.contrEquiv1_symm_val dot_S64x80_S80x4_S64x4_1_0_0_1_n_n 80 rfl rfl k
  have el : dot_S64x80_S80x4_S64x4_1_0_0_1_n_n.lhsIdx (ValueIdx.ix2 p q) ((ValueIdx.contrEquiv1 dot_S64x80_S80x4_S64x4_1_0_0_1_n_n 80 rfl rfl).symm k) = ValueIdx.ix2 p k := funext fun a => Fin.ext (by
    match a with
    | ⟨0, _⟩ => exact head_tile_lhs_row _ _
    | ⟨1, _⟩ => exact (dot_S64x80_S80x4_S64x4_1_0_0_1_n_n.lhsIdx_val_of_single rfl _ _).trans hk)
  have er : dot_S64x80_S80x4_S64x4_1_0_0_1_n_n.rhsIdx (ValueIdx.ix2 p q) ((ValueIdx.contrEquiv1 dot_S64x80_S80x4_S64x4_1_0_0_1_n_n 80 rfl rfl).symm k) = ValueIdx.ix2 k q := funext fun a => Fin.ext (by
    match a with
    | ⟨0, _⟩ => exact (dot_S64x80_S80x4_S64x4_1_0_0_1_n_n.rhsIdx_val_of_single rfl _ _).trans hk
    | ⟨1, _⟩ => exact head_tile_rhs_col _ _)
  rw [el, er]
  rfl

/-- The row coordinate of the left operand's index, for the host product's dimension record. -/
theorem head_host_lhs_row (i : Cert.ReferenceIdeal.S64x4.Idx) (q : Cert.ReferenceIdeal.dot_S64x80_S80x4_S64x4_1_0_0_1_n_n.contr.Idx) :
    (Cert.ReferenceIdeal.dot_S64x80_S80x4_S64x4_1_0_0_1_n_n.lhsIdx i q 0).val = (i 0).val := by
  unfold DotDims.lhsIdx
  rw [dif_neg (show ¬(0 : Fin Cert.ReferenceIdeal.S64x80.rank) ∈ Cert.ReferenceIdeal.dot_S64x80_S80x4_S64x4_1_0_0_1_n_n.lhsBatch by decide), dif_pos (show (0 : Fin Cert.ReferenceIdeal.S64x80.rank) ∈ Cert.ReferenceIdeal.dot_S64x80_S80x4_S64x4_1_0_0_1_n_n.lhsNonContracting by decide)]
  rfl

/-- The column coordinate of the right operand's index. -/
theorem head_host_rhs_col (i : Cert.ReferenceIdeal.S64x4.Idx) (q : Cert.ReferenceIdeal.dot_S64x80_S80x4_S64x4_1_0_0_1_n_n.contr.Idx) :
    (Cert.ReferenceIdeal.dot_S64x80_S80x4_S64x4_1_0_0_1_n_n.rhsIdx i q 1).val = (i 1).val := by
  unfold DotDims.rhsIdx
  rw [dif_neg (show ¬(1 : Fin Cert.ReferenceIdeal.S80x4.rank) ∈ Cert.ReferenceIdeal.dot_S64x80_S80x4_S64x4_1_0_0_1_n_n.rhsBatch by decide), dif_pos (show (1 : Fin Cert.ReferenceIdeal.S80x4.rank) ∈ Cert.ReferenceIdeal.dot_S64x80_S80x4_S64x4_1_0_0_1_n_n.rhsNonContracting by decide)]
  rfl

/-- The host's 64×80 by 80×4 product at row `r`, column `q`: the sum over `k` of X (r, k) · W (k, q). -/
theorem head_host_product_apply (X : FVec Ideal Cert.ReferenceIdeal.S64x80 .f32) (W : FVec Ideal Cert.ReferenceIdeal.S80x4 .f32) (r : Fin 64) (q : Fin 4) :
    Host.dotGeneral (F := Ideal) Cert.ReferenceIdeal.dot_S64x80_S80x4_S64x4_1_0_0_1_n_n none X W (ValueIdx.ix2 r q)
      = ∑ k : Fin 80, X (ValueIdx.ix2 r k) * W (ValueIdx.ix2 k q) := by
  simp only [Host.dotGeneral]
  rw [Ideal.dotGeneral_apply, ← Equiv.sum_comp (ValueIdx.contrEquiv1 Cert.ReferenceIdeal.dot_S64x80_S80x4_S64x4_1_0_0_1_n_n 80 rfl rfl).symm]
  refine Finset.sum_congr rfl fun k _ => ?_
  have hk := ValueIdx.contrEquiv1_symm_val Cert.ReferenceIdeal.dot_S64x80_S80x4_S64x4_1_0_0_1_n_n 80 rfl rfl k
  have el : Cert.ReferenceIdeal.dot_S64x80_S80x4_S64x4_1_0_0_1_n_n.lhsIdx (ValueIdx.ix2 r q) ((ValueIdx.contrEquiv1 Cert.ReferenceIdeal.dot_S64x80_S80x4_S64x4_1_0_0_1_n_n 80 rfl rfl).symm k) = ValueIdx.ix2 r k := funext fun a => Fin.ext (by
    match a with
    | ⟨0, _⟩ => exact head_host_lhs_row _ _
    | ⟨1, _⟩ => exact (Cert.ReferenceIdeal.dot_S64x80_S80x4_S64x4_1_0_0_1_n_n.lhsIdx_val_of_single rfl _ _).trans hk)
  have er : Cert.ReferenceIdeal.dot_S64x80_S80x4_S64x4_1_0_0_1_n_n.rhsIdx (ValueIdx.ix2 r q) ((ValueIdx.contrEquiv1 Cert.ReferenceIdeal.dot_S64x80_S80x4_S64x4_1_0_0_1_n_n 80 rfl rfl).symm k) = ValueIdx.ix2 k q := funext fun a => Fin.ext (by
    match a with
    | ⟨0, _⟩ => exact (Cert.ReferenceIdeal.dot_S64x80_S80x4_S64x4_1_0_0_1_n_n.rhsIdx_val_of_single rfl _ _).trans hk
    | ⟨1, _⟩ => exact head_host_rhs_col _ _)
  rw [el, er]

/-- The windows' block indices over the one-point grid: every window is its whole array, at block (0, 0). -/
theorem block_indices4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- What the grid point writes back is the (whole-array) block of the product of the arrays the region finds. -/
theorem flushed4_eq (c : Dev nD) (t : Fin cfg4.N) :
    (Gen.dat4 (F := Ideal) V c).flushed 2 t = ((cfg4.win 2).blk t).view.read (Elt Ideal)
      (Host.dotGeneral (F := Ideal) (φ₁ := .f32) (φ₂ := .f32) Cert.ReferenceIdeal.dot_S64x80_S80x4_S64x4_1_0_0_1_n_n none (V c main_v72) (V c main_arg8)) := by
  show (cfg4.win 2).cut (grid4.coords t) ((Gen.dat4 V c).after 2 t) = _
  rw [Gen.after4_2]
  unfold Gen.out4_2
  rw [View.canon_unit_zero head_zero_offsets]
  simp only [View.ld_unit_zero (S := S64x80) head_zero_offsets, View.ld_unit_zero (S := S80x4) head_zero_offsets]
  funext j
  obtain ⟨p, q, rfl⟩ : ∃ (p : Fin 64) (q : Fin 4), j = ValueIdx.ix2 p q := ⟨j 0, j 1, ValueIdx.eq_ix2 j⟩
  refine (head_tile_product_apply _ _ p q).trans ?_
  rw [View.read_apply]
  obtain ⟨e00, e01, e10, e11, e20, e21⟩ := block_indices4 t
  have hrow : ((cfg4.win 2).blk t).view.emb (ValueIdx.ix2 p q) = ValueIdx.ix2 p q := by
    funext a; apply Fin.ext
    match a with
    | ⟨0, _⟩ => show win4_2.index t (0 : Fin 2) * 64 + 1 * p.val = p.val; omega
    | ⟨1, _⟩ => show win4_2.index t (1 : Fin 2) * 4 + 1 * q.val = q.val; omega
  rw [hrow, head_host_product_apply]
  refine Finset.sum_congr rfl fun k _ => ?_
  unfold Gen.iblk4
  rw [View.read_apply, View.read_apply]
  have h0 : ((cfg4.win 0).blk t).view.emb (ValueIdx.ix2 p k) = ValueIdx.ix2 p k := by
    funext a; apply Fin.ext
    match a with
    | ⟨0, _⟩ => show win4_0.index t (0 : Fin 2) * 64 + 1 * p.val = p.val; omega
    | ⟨1, _⟩ => show win4_0.index t (1 : Fin 2) * 80 + 1 * k.val = k.val; omega
  have h1 : ((cfg4.win 1).blk t).view.emb (ValueIdx.ix2 k q) = ValueIdx.ix2 k q := by
    funext a; apply Fin.ext
    match a with
    | ⟨0, _⟩ => show win4_1.index t (0 : Fin 2) * 80 + 1 * k.val = k.val; omega
    | ⟨1, _⟩ => show win4_1.index t (1 : Fin 2) * 4 + 1 * q.val = q.val; omega
  rw [h0, h1]
  rfl

/-- An index of the product array is in the point's block iff each coordinate is in the block's range on its axis. -/
theorem mem_block4 (t : Fin cfg4.N) (i : S64x4.Idx) :
    i ∈ ((cfg4.win 2).blk t).view.set ↔ ∀ a : Fin 2, win4_2.index t a * S64x4.size a ≤ (i a).val ∧ (i a).val < win4_2.index t a * S64x4.size a + S64x4.size a := by
  show i ∈ ((View.whole main_v73).slice (win4_2.rect t)).set ↔ _
  rw [View.set_slice_whole, Rect.mem_set_unit]
  exact Iff.rfl

/-- The one block is the whole 64×4 array, so it covers it. -/
theorem cover4 (i : S64x4.Idx) :
    ∃ t : Fin cfg4.N, (cfg4.win 2).flush t = true ∧ i ∈ ((cfg4.win 2).blk t).view.set := by
  have hN : cfg4.N = 1 := Gen.N_4
  have hi0 : (i 0).val < 64 := (i 0).isLt
  have hi1 : (i 1).val < 4 := (i 1).isLt
  obtain ⟨t, ht⟩ : ∃ t : Fin cfg4.N, t.val = 0 := ⟨⟨0, by omega⟩, rfl⟩
  obtain ⟨_, _, _, _, e20, e21⟩ := block_indices4 t
  refine ⟨t, Gen.flush4_2 t, ?_⟩
  rw [mem_block4]
  intro a
  match a with
  | ⟨0, _⟩ => show win4_2.index t (0 : Fin 2) * 64 ≤ (i 0).val ∧ (i 0).val < win4_2.index t (0 : Fin 2) * 64 + 64; omega
  | ⟨1, _⟩ => show win4_2.index t (1 : Fin 2) * 4 ≤ (i 1).val ∧ (i 1).val < win4_2.index t (1 : Fin 2) * 4 + 4; omega

/-- Region 4's output array after its one grid point is the whole head product of the arrays the region finds. -/
theorem matmul4 (c : Dev nD) :
    (Gen.dat4 (F := Ideal) V c).arrAt 2 cfg4.N
      = Host.dotGeneral (F := Ideal) (φ₁ := .f32) (φ₂ := .f32) Cert.ReferenceIdeal.dot_S64x80_S80x4_S64x4_1_0_0_1_n_n none (V c main_v72) (V c main_arg8) :=
  (Gen.dat4 (F := Ideal) V c).arrAt_eq_of_cover 2 _ (fun t _ => flushed4_eq V c t) cover4

end Cert.KernelIdeal.RegionValue

end
-- ==== Proof.CombineRegions.lean ====
import proofs.«131117_j51857435132133_1_alg».proof.Proof.Gen.KernelIdeal.Frame
import proofs.«131117_j51857435132133_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

/-!
# The two combine regions as whole-array functions

Each of the two combine regions computes, block of 10000 rows by block, `relu(agg + xw · deg2 + bias)`:
at row `r` and column `q` the value `max ((agg (r, q) + xw (r, q) * deg2 (r, 0)) + bias (0, q)) 0`.
The blocks tile the [100000, 64] result, so the array the region leaves is that one function of the four
arrays the region finds on entry, written with the host's whole-array operations.
-/

noncomputable section

namespace Cert.KernelIdeal.RegionValue

open Cert.KernelIdeal Idealize.ShloMosaic Idealize.ShloMosaic.TcCoe Idealize.SL.Sem Idealize.ShloMosaic.Pipeline
open Idealize.ShloMosaic.ValueIdx

/-! ## Broadcasts of a column and of a scalar, read at an index -/

/-- An `[a, 1]` column broadcast along the lanes to `[a, b]` reads, at `(p, q)`, the column's entry in row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a, 1]` column to `[a, b]` (axes kept in place) reads the same entry. -/
theorem broadcastInDim_col_apply {α : Type} {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of a `[1, b]` row to `[a, b]` reads, at `(p, q)`, the row's entry in column `q`. -/
theorem broadcastInDim_row_apply {α : Type} {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- The host's `broadcast_in_dim` of a scalar reads the scalar everywhere. -/
theorem broadcastInDim_scalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-! ## The combine at one element -/

/-- One element of the combine: `max ((agg + xw * deg2) + bias) 0` on the extended reals, the zero kept as the
    word it is printed with. -/
def combineElt (agg xw deg2 bias : Ideal .f32) : Ideal .f32 :=
  max ((agg + xw * deg2) + bias) (Ideal.ofBits .f32 0x00000000#32)

/-- The first combine's body: its result at row `p`, column `q` of its block: the combine of the four loaded blocks' entries at
    `(p, q)`, `(p, q)`, `(p, 0)` and `(0, q)` (the shape casts are to the same shape; the column and the row are
    broadcast; the scalar zero is splat). -/
theorem payload1_apply (xw : Vec Ideal S10000x64 .f32) (d : Vec Ideal S10000x1 .f32) (agg : Vec Ideal S10000x64 .f32)
    (b : Vec Ideal S1x64 .f32) (p : Fin 10000) (q : Fin 64) :
    Gen.k1_pay1 (F := Ideal) xw d agg b (ix2 p q)
      = combineElt (agg (ix2 p q)) (xw (ix2 p q)) (d (ix2 p (0 : Fin 1))) (b (ix2 (0 : Fin 1) q)) := by
  unfold Gen.k1_pay1
  simp only [shapeCast_self]
  rw [maximumf_apply, addf_apply, addf_apply, mulf_apply, broadcast_apply, broadcastTo_1b_ab_apply,
    broadcastTo_col_apply]
  rfl

/-- The second combine's body computes the same: its result at row `p`, column `q` of its block: the combine of the four loaded blocks' entries at
    `(p, q)`, `(p, q)`, `(p, 0)` and `(0, q)` (the shape casts are to the same shape; the column and the row are
    broadcast; the scalar zero is splat). -/
theorem payload3_apply (xw : Vec Ideal S10000x64 .f32) (d : Vec Ideal S10000x1 .f32) (agg : Vec Ideal S10000x64 .f32)
    (b : Vec Ideal S1x64 .f32) (p : Fin 10000) (q : Fin 64) :
    Gen.k3_pay1 (F := Ideal) xw d agg b (ix2 p q)
      = combineElt (agg (ix2 p q)) (xw (ix2 p q)) (d (ix2 p (0 : Fin 1))) (b (ix2 (0 : Fin 1) q)) := by
  unfold Gen.k3_pay1
  simp only [shapeCast_self]
  rw [maximumf_apply, addf_apply, addf_apply, mulf_apply, broadcast_apply, broadcastTo_1b_ab_apply,
    broadcastTo_col_apply]
  rfl

/-- The host's whole-array combine of four arrays: `maximum (add (add agg (multiply xw (broadcast deg2))) (broadcast bias))
    (broadcast 0)`, the term the reference program's operations build (for any proofs of the three broadcasts' shape
    conditions). -/
abbrev hostCombine
    (hcol : Cert.ReferenceIdeal.S100000x1.BroadcastsInDim Cert.ReferenceIdeal.S100000x64 ![0, 1])
    (hrow : Cert.ReferenceIdeal.S1x64.BroadcastsInDim Cert.ReferenceIdeal.S100000x64 ![0, 1])
    (hscal : Cert.ReferenceIdeal.S_.BroadcastsInDim Cert.ReferenceIdeal.S100000x64 ![])
    (agg xw : FVec Ideal Cert.ReferenceIdeal.S100000x64 .f32)
    (d : FVec Ideal Cert.ReferenceIdeal.S100000x1 .f32) (b : FVec Ideal Cert.ReferenceIdeal.S1x64 .f32) :
    FVec Ideal Cert.ReferenceIdeal.S100000x64 .f32 :=
  maximumf (addf (addf agg (mulf xw (broadcastInDim Cert.ReferenceIdeal.S100000x64 ![0, 1] hcol d)))
        (broadcastInDim Cert.ReferenceIdeal.S100000x64 ![0, 1] hrow b))
      (broadcastInDim Cert.ReferenceIdeal.S100000x64 ![] hscal
        (constant (F := Ideal) Cert.ReferenceIdeal.S_ .f32 0x00000000#32))

/-- The host's whole-array combine at row `r`, column `q`. -/
theorem hostCombine_apply
    (hcol : Cert.ReferenceIdeal.S100000x1.BroadcastsInDim Cert.ReferenceIdeal.S100000x64 ![0, 1])
    (hrow : Cert.ReferenceIdeal.S1x64.BroadcastsInDim Cert.ReferenceIdeal.S100000x64 ![0, 1])
    (hscal : Cert.ReferenceIdeal.S_.BroadcastsInDim Cert.ReferenceIdeal.S100000x64 ![])
    (agg xw : FVec Ideal Cert.ReferenceIdeal.S100000x64 .f32)
    (d : FVec Ideal Cert.ReferenceIdeal.S100000x1 .f32) (b : FVec Ideal Cert.ReferenceIdeal.S1x64 .f32)
    (r : Fin 100000) (q : Fin 64) :
    hostCombine hcol hrow hscal agg xw d b (ix2 r q)
      = combineElt (agg (ix2 r q)) (xw (ix2 r q)) (d (ix2 r (0 : Fin 1))) (b (ix2 (0 : Fin 1) q)) := by
  unfold hostCombine
  rw [maximumf_apply, addf_apply, addf_apply, mulf_apply, broadcastInDim_col_apply, broadcastInDim_row_apply,
    broadcastInDim_scalar_apply, constant_apply]
  rfl

/-! ## The regions -/

theorem zero_offsets : (![0, 0] : Fin 2 → Nat) = fun _ => 0 := funext fun a => by fin_cases a <;> rfl

variable (V : (c : Dev nD) → (b : Ref sig .tc) → Buf (Elt Ideal) ((c : Thread nD τ).loc b))

/-! ## Region 1: the printed index maps, the input blocks as rows of their arrays -/

/-- The printed index maps over the grid of region 1: the three row-tiled inputs and the output sit at block row
    `t`, block column 0; the bias row at block (0, 0); and the grid has 10 points. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ t.val < 10 :=
  (by decide +kernel : ∀ t : Fin grid1.N, _)

/-- Row `p` of the aggregated messages' block at point `t` is row `10000 t + p` of the array. -/
theorem agg1_block_apply (c : Dev nD) (t : Fin cfg1.N) (p : Fin 10000) (q : Fin 64) (r : Fin 100000)
    (hr : r.val = t.val * 10000 + p.val) :
    (Gen.iblk1 V c 0 t : Vec Ideal S10000x64 .f32) (ix2 p q)
      = (V c main_v41 : FVec Ideal S100000x64 .f32) (ix2 r q) := by
  obtain ⟨e0, e1, -⟩ := blockIndex1 t
  unfold Gen.iblk1
  rw [View.read_apply]
  show V c main_v41 _ = V c main_v41 _
  congr 1
  funext a
  apply Fin.ext
  match a with
  | ⟨0, _⟩ => show win1_0.index t (0 : Fin 2) * 10000 + 1 * p.val = r.val; omega
  | ⟨1, _⟩ => show win1_0.index t (1 : Fin 2) * 64 + 1 * q.val = q.val; omega

/-- Row `p` of the transformed features' block at point `t` is row `10000 t + p` of the array. -/
theorem xw1_block_apply (c : Dev nD) (t : Fin cfg1.N) (p : Fin 10000) (q : Fin 64) (r : Fin 100000)
    (hr : r.val = t.val * 10000 + p.val) :
    (Gen.iblk1 V c 1 t : Vec Ideal S10000x64 .f32) (ix2 p q)
      = (V c main_v28 : FVec Ideal S100000x64 .f32) (ix2 r q) := by
  obtain ⟨-, -, e0, e1, -⟩ := blockIndex1 t
  unfold Gen.iblk1
  rw [View.read_apply]
  show V c main_v28 _ = V c main_v28 _
  congr 1
  funext a
  apply Fin.ext
  match a with
  | ⟨0, _⟩ => show win1_1.index t (0 : Fin 2) * 10000 + 1 * p.val = r.val; omega
  | ⟨1, _⟩ => show win1_1.index t (1 : Fin 2) * 64 + 1 * q.val = q.val; omega

/-- Entry `p` of the degree column's block at point `t` is entry `10000 t + p` of the column. -/
theorem deg1_block_apply (c : Dev nD) (t : Fin cfg1.N) (p : Fin 10000) (r : Fin 100000)
    (hr : r.val = t.val * 10000 + p.val) :
    (Gen.iblk1 V c 2 t : Vec Ideal S10000x1 .f32) (ix2 p (0 : Fin 1))
      = (V c main_v27 : FVec Ideal S100000x1 .f32) (ix2 r (0 : Fin 1)) := by
  obtain ⟨-, -, -, -, e0, e1, -⟩ := blockIndex1 t
  unfold Gen.iblk1
  rw [View.read_apply]
  show V c main_v27 _ = V c main_v27 _
  congr 1
  funext a
  apply Fin.ext
  match a with
  | ⟨0, _⟩ => show win1_2.index t (0 : Fin 2) * 10000 + 1 * p.val = r.val; omega
  | ⟨1, _⟩ => show win1_2.index t (1 : Fin 2) * 1 + 1 * 0 = 0; omega

/-- The bias row's block at every point is the whole row. -/
theorem bias1_block_apply (c : Dev nD) (t : Fin cfg1.N) (q : Fin 64) :
    (Gen.iblk1 V c 3 t : Vec Ideal S1x64 .f32) (ix2 (0 : Fin 1) q)
      = (V c main_v42 : FVec Ideal S1x64 .f32) (ix2 (0 : Fin 1) q) := by
  obtain ⟨-, -, -, -, -, -, e0, e1, -⟩ := blockIndex1 t
  unfold Gen.iblk1
  rw [View.read_apply]
  show V c main_v42 _ = V c main_v42 _
  congr 1
  funext a
  apply Fin.ext
  match a with
  | ⟨0, _⟩ => show win1_3.index t (0 : Fin 2) * 1 + 1 * 0 = 0; omega
  | ⟨1, _⟩ => show win1_3.index t (1 : Fin 2) * 64 + 1 * q.val = q.val; omega

/-! ## Region 1: what a point writes back, the cover, the array -/

/-- WHAT POINT `t` WRITES BACK is block `t` of the host's combine of the four arrays the region finds on entry: at
    row `p` of the block both sides are the combine of the entries at row `10000 t + p`. -/
theorem flushed1_eq
    (hcol : Cert.ReferenceIdeal.S100000x1.BroadcastsInDim Cert.ReferenceIdeal.S100000x64 ![0, 1])
    (hrow : Cert.ReferenceIdeal.S1x64.BroadcastsInDim Cert.ReferenceIdeal.S100000x64 ![0, 1])
    (hscal : Cert.ReferenceIdeal.S_.BroadcastsInDim Cert.ReferenceIdeal.S100000x64 ![])
    (c : Dev nD) (t : Fin cfg1.N) :
    (Gen.dat1 (F := Ideal) V c).flushed 4 t
      = ((cfg1.win 4).blk t).view.read (Elt Ideal)
          (hostCombine hcol hrow hscal (V c main_v41) (V c main_v28) (V c main_v27) (V c main_v42)) := by
  show (cfg1.win 4).cut (grid1.coords t) ((Gen.dat1 V c).after 4 t) = _
  rw [Gen.after1_4]
  unfold Gen.out1_4
  rw [View.canon_unit_zero zero_offsets]
  simp only [View.ld_unit_zero (S := S10000x64) zero_offsets, View.ld_unit_zero (S := S10000x1) zero_offsets,
    View.ld_unit_zero (S := S1x64) zero_offsets]
  obtain ⟨-, -, -, -, -, -, -, -, e8, e9, ht⟩ := blockIndex1 t
  funext j
  obtain ⟨p, q, rfl⟩ : ∃ (p : Fin 10000) (q : Fin 64), j = ix2 p q := ⟨j 0, j 1, eq_ix2 j⟩
  have hp : p.val < 10000 := p.isLt
  obtain ⟨r, hr⟩ : ∃ r : Fin 100000, r.val = t.val * 10000 + p.val := ⟨⟨t.val * 10000 + p.val, by omega⟩, rfl⟩
  have hemb : ((cfg1.win 4).blk t).view.emb (ix2 p q) = ix2 r q := by
    funext a
    apply Fin.ext
    match a with
    | ⟨0, _⟩ => show win1_4.index t (0 : Fin 2) * 10000 + 1 * p.val = r.val; omega
    | ⟨1, _⟩ => show win1_4.index t (1 : Fin 2) * 64 + 1 * q.val = q.val; omega
  show Gen.k1_pay1 _ _ _ _ (ix2 p q) = hostCombine _ _ _ _ _ _ _ (((cfg1.win 4).blk t).view.emb (ix2 p q))
  rw [hemb, payload1_apply, hostCombine_apply, agg1_block_apply V c t p q r hr, xw1_block_apply V c t p q r hr,
    deg1_block_apply V c t p r hr, bias1_block_apply V c t q]

/-- An index of the result array is in point `t`'s block iff each coordinate is in the block's range on its axis. -/
theorem mem_block1 (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v43).slice (win1_4.rect t)).set ↔ _
  rw [View.set_slice_whole, Rect.mem_set_unit]
  exact Iff.rfl

/-- THE BLOCKS TILE THE ARRAY: row `r` lies in the block of point `r / 10000`, and every point writes back. -/
theorem covered1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := Gen.N_1
  obtain ⟨t, htv⟩ : ∃ t : Fin cfg1.N, t.val = (i 0).val / 10000 := ⟨⟨(i 0).val / 10000, by rw [hN]; omega⟩, rfl⟩
  obtain ⟨-, -, -, -, -, -, -, -, e8, e9, -⟩ := blockIndex1 t
  refine ⟨t, Gen.flush1_4 t, ?_⟩
  rw [mem_block1]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 64 ≤ (i 1).val ∧ (i 1).val < win1_4.index t (1 : Fin 2) * 64 + 64
    omega

/-- THE ARRAY region 1 leaves: the host's combine of the arrays it finds on entry. -/
theorem combine1
    (hcol : Cert.ReferenceIdeal.S100000x1.BroadcastsInDim Cert.ReferenceIdeal.S100000x64 ![0, 1])
    (hrow : Cert.ReferenceIdeal.S1x64.BroadcastsInDim Cert.ReferenceIdeal.S100000x64 ![0, 1])
    (hscal : Cert.ReferenceIdeal.S_.BroadcastsInDim Cert.ReferenceIdeal.S100000x64 ![])
    (c : Dev nD) :
    (Gen.dat1 (F := Ideal) V c).arrAt 4 cfg1.N
      = maximumf (addf (addf (V c main_v41) (mulf (V c main_v28)
            (broadcastInDim Cert.ReferenceIdeal.S100000x64 ![0, 1] hcol (V c main_v27))))
          (broadcastInDim Cert.ReferenceIdeal.S100000x64 ![0, 1] hrow (V c main_v42)))
        (broadcastInDim Cert.ReferenceIdeal.S100000x64 ![] hscal
          (constant (F := Ideal) Cert.ReferenceIdeal.S_ .f32 0x00000000#32)) :=
  (Gen.dat1 (F := Ideal) V c).arrAt_eq_of_cover 4
    (hostCombine hcol hrow hscal (V c main_v41) (V c main_v28) (V c main_v27) (V c main_v42))
    (fun t _ => flushed1_eq V hcol hrow hscal c t) covered1

/-! ## Region 3: the printed index maps, the input blocks as rows of their arrays -/

/-- The printed index maps over the grid of region 3: the three row-tiled inputs and the output sit at block row
    `t`, block column 0; the bias row at block (0, 0); and the grid has 10 points. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ t.val < 10 :=
  (by decide +kernel : ∀ t : Fin grid3.N, _)

/-- Row `p` of the aggregated messages' block at point `t` is row `10000 t + p` of the array. -/
theorem agg3_block_apply (c : Dev nD) (t : Fin cfg3.N) (p : Fin 10000) (q : Fin 64) (r : Fin 100000)
    (hr : r.val = t.val * 10000 + p.val) :
    (Gen.iblk3 V c 0 t : Vec Ideal S10000x64 .f32) (ix2 p q)
      = (V c main_v57 : FVec Ideal S100000x64 .f32) (ix2 r q) := by
  obtain ⟨e0, e1, -⟩ := blockIndex3 t
  unfold Gen.iblk3
  rw [View.read_apply]
  show V c main_v57 _ = V c main_v57 _
  congr 1
  funext a
  apply Fin.ext
  match a with
  | ⟨0, _⟩ => show win3_0.index t (0 : Fin 2) * 10000 + 1 * p.val = r.val; omega
  | ⟨1, _⟩ => show win3_0.index t (1 : Fin 2) * 64 + 1 * q.val = q.val; omega

/-- Row `p` of the transformed features' block at point `t` is row `10000 t + p` of the array. -/
theorem xw3_block_apply (c : Dev nD) (t : Fin cfg3.N) (p : Fin 10000) (q : Fin 64) (r : Fin 100000)
    (hr : r.val = t.val * 10000 + p.val) :
    (Gen.iblk3 V c 1 t : Vec Ideal S10000x64 .f32) (ix2 p q)
      = (V c main_v44 : FVec Ideal S100000x64 .f32) (ix2 r q) := by
  obtain ⟨-, -, e0, e1, -⟩ := blockIndex3 t
  unfold Gen.iblk3
  rw [View.read_apply]
  show V c main_v44 _ = V c main_v44 _
  congr 1
  funext a
  apply Fin.ext
  match a with
  | ⟨0, _⟩ => show win3_1.index t (0 : Fin 2) * 10000 + 1 * p.val = r.val; omega
  | ⟨1, _⟩ => show win3_1.index t (1 : Fin 2) * 64 + 1 * q.val = q.val; omega

/-- Entry `p` of the degree column's block at point `t` is entry `10000 t + p` of the column. -/
theorem deg3_block_apply (c : Dev nD) (t : Fin cfg3.N) (p : Fin 10000) (r : Fin 100000)
    (hr : r.val = t.val * 10000 + p.val) :
    (Gen.iblk3 V c 2 t : Vec Ideal S10000x1 .f32) (ix2 p (0 : Fin 1))
      = (V c main_v27 : FVec Ideal S100000x1 .f32) (ix2 r (0 : Fin 1)) := by
  obtain ⟨-, -, -, -, e0, e1, -⟩ := blockIndex3 t
  unfold Gen.iblk3
  rw [View.read_apply]
  show V c main_v27 _ = V c main_v27 _
  congr 1
  funext a
  apply Fin.ext
  match a with
  | ⟨0, _⟩ => show win3_2.index t (0 : Fin 2) * 10000 + 1 * p.val = r.val; omega
  | ⟨1, _⟩ => show win3_2.index t (1 : Fin 2) * 1 + 1 * 0 = 0; omega

/-- The bias row's block at every point is the whole row. -/
theorem bias3_block_apply (c : Dev nD) (t : Fin cfg3.N) (q : Fin 64) :
    (Gen.iblk3 V c 3 t : Vec Ideal S1x64 .f32) (ix2 (0 : Fin 1) q)
      = (V c main_v58 : FVec Ideal S1x64 .f32) (ix2 (0 : Fin 1) q) := by
  obtain ⟨-, -, -, -, -, -, e0, e1, -⟩ := blockIndex3 t
  unfold Gen.iblk3
  rw [View.read_apply]
  show V c main_v58 _ = V c main_v58 _
  congr 1
  funext a
  apply Fin.ext
  match a with
  | ⟨0, _⟩ => show win3_3.index t (0 : Fin 2) * 1 + 1 * 0 = 0; omega
  | ⟨1, _⟩ => show win3_3.index t (1 : Fin 2) * 64 + 1 * q.val = q.val; omega

/-! ## Region 3: what a point writes back, the cover, the array -/

/-- WHAT POINT `t` WRITES BACK is block `t` of the host's combine of the four arrays the region finds on entry: at
    row `p` of the block both sides are the combine of the entries at row `10000 t + p`. -/
theorem flushed3_eq
    (hcol : Cert.ReferenceIdeal.S100000x1.BroadcastsInDim Cert.ReferenceIdeal.S100000x64 ![0, 1])
    (hrow : Cert.ReferenceIdeal.S1x64.BroadcastsInDim Cert.ReferenceIdeal.S100000x64 ![0, 1])
    (hscal : Cert.ReferenceIdeal.S_.BroadcastsInDim Cert.ReferenceIdeal.S100000x64 ![])
    (c : Dev nD) (t : Fin cfg3.N) :
    (Gen.dat3 (F := Ideal) V c).flushed 4 t
      = ((cfg3.win 4).blk t).view.read (Elt Ideal)
          (hostCombine hcol hrow hscal (V c main_v57) (V c main_v44) (V c main_v27) (V c main_v58)) := by
  show (cfg3.win 4).cut (grid3.coords t) ((Gen.dat3 V c).after 4 t) = _
  rw [Gen.after3_4]
  unfold Gen.out3_4
  rw [View.canon_unit_zero zero_offsets]
  simp only [View.ld_unit_zero (S := S10000x64) zero_offsets, View.ld_unit_zero (S := S10000x1) zero_offsets,
    View.ld_unit_zero (S := S1x64) zero_offsets]
  obtain ⟨-, -, -, -, -, -, -, -, e8, e9, ht⟩ := blockIndex3 t
  funext j
  obtain ⟨p, q, rfl⟩ : ∃ (p : Fin 10000) (q : Fin 64), j = ix2 p q := ⟨j 0, j 1, eq_ix2 j⟩
  have hp : p.val < 10000 := p.isLt
  obtain ⟨r, hr⟩ : ∃ r : Fin 100000, r.val = t.val * 10000 + p.val := ⟨⟨t.val * 10000 + p.val, by omega⟩, rfl⟩
  have hemb : ((cfg3.win 4).blk t).view.emb (ix2 p q) = ix2 r q := by
    funext a
    apply Fin.ext
    match a with
    | ⟨0, _⟩ => show win3_4.index t (0 : Fin 2) * 10000 + 1 * p.val = r.val; omega
    | ⟨1, _⟩ => show win3_4.index t (1 : Fin 2) * 64 + 1 * q.val = q.val; omega
  show Gen.k3_pay1 _ _ _ _ (ix2 p q) = hostCombine _ _ _ _ _ _ _ (((cfg3.win 4).blk t).view.emb (ix2 p q))
  rw [hemb, payload3_apply, hostCombine_apply, agg3_block_apply V c t p q r hr, xw3_block_apply V c t p q r hr,
    deg3_block_apply V c t p r hr, bias3_block_apply V c t q]

/-- An index of the result array is in point `t`'s block iff each coordinate is in the block's range on its axis. -/
theorem mem_block3 (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v59).slice (win3_4.rect t)).set ↔ _
  rw [View.set_slice_whole, Rect.mem_set_unit]
  exact Iff.rfl

/-- THE BLOCKS TILE THE ARRAY: row `r` lies in the block of point `r / 10000`, and every point writes back. -/
theorem covered3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := Gen.N_3
  obtain ⟨t, htv⟩ : ∃ t : Fin cfg3.N, t.val = (i 0).val / 10000 := ⟨⟨(i 0).val / 10000, by rw [hN]; omega⟩, rfl⟩
  obtain ⟨-, -, -, -, -, -, -, -, e8, e9, -⟩ := blockIndex3 t
  refine ⟨t, Gen.flush3_4 t, ?_⟩
  rw [mem_block3]
  intro a
  match a with
  | ⟨0, _⟩ =>
    show win3_4.index t (0 : Fin 2) * 10000 ≤ (i 0).val ∧ (i 0).val < win3_4.index t (0 : Fin 2) * 10000 + 10000
    omega
  | ⟨1, _⟩ =>
    show win3_4.index t (1 : Fin 2) * 64 ≤ (i 1).val ∧ (i 1).val < win3_4.index t (1 : Fin 2) * 64 + 64
    omega

/-- THE ARRAY region 3 leaves: the host's combine of the arrays it finds on entry. -/
theorem combine3
    (hcol : Cert.ReferenceIdeal.S100000x1.BroadcastsInDim Cert.ReferenceIdeal.S100000x64 ![0, 1])
    (hrow : Cert.ReferenceIdeal.S1x64.BroadcastsInDim Cert.ReferenceIdeal.S100000x64 ![0, 1])
    (hscal : Cert.ReferenceIdeal.S_.BroadcastsInDim Cert.ReferenceIdeal.S100000x64 ![])
    (c : Dev nD) :
    (Gen.dat3 (F := Ideal) V c).arrAt 4 cfg3.N
      = maximumf (addf (addf (V c main_v57) (mulf (V c main_v44)
            (broadcastInDim Cert.ReferenceIdeal.S100000x64 ![0, 1] hcol (V c main_v27))))
          (broadcastInDim Cert.ReferenceIdeal.S100000x64 ![0, 1] hrow (V c main_v58)))
        (broadcastInDim Cert.ReferenceIdeal.S100000x64 ![] hscal
          (constant (F := Ideal) Cert.ReferenceIdeal.S_ .f32 0x00000000#32)) :=
  (Gen.dat3 (F := Ideal) V c).arrAt_eq_of_cover 4
    (hostCombine hcol hrow hscal (V c main_v57) (V c main_v44) (V c main_v27) (V c main_v58))
    (fun t _ => flushed3_eq V hcol hrow hscal c t) covered3

end Cert.KernelIdeal.RegionValue

end
-- ==== Proof.lean ====
/-
  Equivalence, over the extended reals, of a two-layer graph convolution network written with five Pallas kernels
  (the two feature transforms X·W and the head's product on the MXU with bf16 inputs; the two fused
  max(agg + xw·deg2 + b, 0) combines) against its jnp reference.

  At the ideal instance a change of float format is the identity and a matrix product into a zero accumulator is the
  plain sum of products, so each kernel region's output array — its blocks of 10000 rows put back together — is the
  host operation the reference applies to the same operands: the three products are `dot_general`s
  (MatmulRegion0 / MatmulRegion2 / MatmulRegion4), the two combines are the reference's add, add and max against the
  column of squared inverse square roots and the bias row spread over the array (CombineRegions). Everything
  between the regions — the degree, its inverse square root, the edge weights, the gathers and scatter-adds, the
  mean pool — is the same host operations in both programs, applied to equal operands. Walking @main's ten segments
  (Fold) the result buffer therefore ends at the reference's own term of the arguments; no law of arithmetic beyond
  these identities is used, and the precondition (finite inputs) is not needed.

  The three frames: the two kernel programs' are the launch over the segments; the reference's is its run with the
  result dropped. The idealization rewrote no operation, so it preserves the program trivially.
-/
import proofs.«131117_j51857435132133_1_alg».proof.Defs
import proofs.«131117_j51857435132133_1_alg».proof.Proof.Gen.Kernel
import proofs.«131117_j51857435132133_1_alg».proof.Proof.Gen.Kernel.Frame
import proofs.«131117_j51857435132133_1_alg».proof.Proof.Gen.KernelIdeal
import proofs.«131117_j51857435132133_1_alg».proof.Proof.Gen.KernelIdeal.Frame
import proofs.«131117_j51857435132133_1_alg».proof.Proof.Gen.ReferenceIdeal
import proofs.«131117_j51857435132133_1_alg».proof.Proof.Gen.Pre_finite_inputs
import proofs.«131117_j51857435132133_1_alg».proof.Proof.Gen.ReferenceIdeal.Run
import proofs.«131117_j51857435132133_1_alg».proof.Proof.Gen.ReferenceIdeal.Read
import proofs.«131117_j51857435132133_1_alg».proof.Proof.KernelRun
import proofs.«131117_j51857435132133_1_alg».proof.Proof.Fold
import proofs.«131117_j51857435132133_1_alg».proof.Proof.MatmulRegion0
import proofs.«131117_j51857435132133_1_alg».proof.Proof.MatmulRegion2
import proofs.«131117_j51857435132133_1_alg».proof.Proof.MatmulRegion4
import proofs.«131117_j51857435132133_1_alg».proof.Proof.CombineRegions
import Idealize.ShloMosaic.Adequacy
import Idealize.ShloMosaic.Init

noncomputable section

namespace Cert.Proof

open Idealize.ShloMosaic Idealize.SL.Sem

/-- Each kernel region's output array is the reference's host operation of the arrays the region finds on entry. -/
theorem regionFacts : Cert.KernelIdeal.Fold.RegionFacts where
  mm0 V c := Cert.KernelIdeal.RegionValue.matmul0 V c
  cb1 V c := Cert.KernelIdeal.RegionValue.combine1 V _ _ _ c
  mm2 V c := Cert.KernelIdeal.RegionValue.matmul2 V c
  cb3 V c := Cert.KernelIdeal.RegionValue.combine3 V _ _ _ c
  mm4 V c := Cert.KernelIdeal.RegionValue.matmul4 V c

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the reference's term of the arguments in their
    result buffers: the kernel program by the walk through its segments, the reference by its own run. -/
theorem algebraic : Cert.algebraic_KernelIdeal_ReferenceIdeal := by
  intro m ρ m' ρ' _ hagree
  refine ⟨fun c => Cert.ReferenceIdeal.Read.val_main_v103 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Fold.result m ρ c regionFacts), (h c).2⟩)
      (Cert.KernelIdeal.KernelRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v103_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
